-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x50000x128 : Shape := ⟨3, ![2, 50000, 128]⟩
abbrev S4x600000 : Shape := ⟨2, ![4, 600000]⟩
abbrev S64x128 : Shape := ⟨2, ![64, 128]⟩
abbrev S128x128 : Shape := ⟨2, ![128, 128]⟩
abbrev S_ : Shape := ⟨0, ![]⟩
abbrev S1x600000 : Shape := ⟨2, ![1, 600000]⟩

class Facts : Prop where
  bcast_S_S2x50000x128 : S_.BroadcastsInDim S2x50000x128 (![] : Fin 0 → Fin S2x50000x128.rank)
  reducesTo_S2x50000x128_S_d0_1_2 : S2x50000x128.ReducesTo [0, 1, 2] S_
  h_S_ : 0 < S_.numel
  bcast_S_S64x128 : S_.BroadcastsInDim S64x128 (![] : Fin 0 → Fin S64x128.rank)
  reducesTo_S64x128_S_d0_1 : S64x128.ReducesTo [0, 1] S_
  bcast_S_S128x128 : S_.BroadcastsInDim S128x128 (![] : Fin 0 → Fin S128x128.rank)
  reducesTo_S128x128_S_d0_1 : S128x128.ReducesTo [0, 1] S_
  slices_S4x600000_S1x600000_0_0 : S4x600000.Slices ![0, 0] S1x600000
  bcast_S_S1x600000 : S_.BroadcastsInDim S1x600000 (![] : Fin 0 → Fin S1x600000.rank)
  reducesTo_S1x600000_S_d0_1 : S1x600000.ReducesTo [0, 1] S_
  slices_S4x600000_S1x600000_1_0 : S4x600000.Slices ![1, 0] S1x600000
  slices_S4x600000_S1x600000_3_0 : S4x600000.Slices ![3, 0] S1x600000

variable [Facts]

def fn_part2 {F : FTy → Type} [FloatOps F] (main_arg1 : IVec S4x600000 32) (main_v33 : IVec S_ 1) : IVec S_ 1 :=
  let main_v34 : IVec S1x600000 32 := (extractStridedSlice S1x600000 ![3, 0] · slices_S4x600000_S1x600000_3_0) main_arg1
  let main_c_12 : IVec S_ 32 := constantI S_ 32 0#32
  let main_v35 : IVec S1x600000 32 := broadcastInDim S1x600000 ![] bcast_S_S1x600000 main_c_12
  let main_v36 : IVec S1x600000 1 := cmpi .sge main_v34 main_v35
  let main_c_13 : IVec S_ 1 := constantI S_ 1 1#1
  let main_v37 : IVec S_ 1 := (fun x v => Host.reduce IntOp.andi x v reducesTo_S1x600000_S_d0_1 h_S_) main_v36 main_c_13
  let main_v38 : IVec S_ 1 := andi main_v33 main_v37
  let main_v39 : IVec S1x600000 32 := (extractStridedSlice S1x600000 ![3, 0] · slices_S4x600000_S1x600000_3_0) main_arg1
  let main_c_14 : IVec S_ 32 := constantI S_ 32 64#32
  let main_v40 : IVec S1x600000 32 := broadcastInDim S1x600000 ![] bcast_S_S1x600000 main_c_14
  let main_v41 : IVec S1x600000 1 := cmpi .slt main_v39 main_v40
  let main_c_15 : IVec S_ 1 := constantI S_ 1 1#1
  let main_v42 : IVec S_ 1 := (fun x v => Host.reduce IntOp.andi x v reducesTo_S1x600000_S_d0_1 h_S_) main_v41 main_c_15
  let main_v43 : IVec S_ 1 := andi main_v38 main_v42
  main_v43

def fn_part1 {F : FTy → Type} [FloatOps F] (main_arg1 : IVec S4x600000 32) (main_v13 : IVec S_ 1) (main_v16 : IVec S1x600000 1) : IVec S_ 1 :=
  let main_c_5 : IVec S_ 1 := constantI S_ 1 1#1
  let main_v17 : IVec S_ 1 := (fun x v => Host.reduce IntOp.andi x v reducesTo_S1x600000_S_d0_1 h_S_) main_v16 main_c_5
  let main_v18 : IVec S_ 1 := andi main_v13 main_v17
  let main_v19 : IVec S1x600000 32 := (extractStridedSlice S1x600000 ![0, 0] · slices_S4x600000_S1x600000_0_0) main_arg1
  let main_c_6 : IVec S_ 32 := constantI S_ 32 2#32
  let main_v20 : IVec S1x600000 32 := broadcastInDim S1x600000 ![] bcast_S_S1x600000 main_c_6
  let main_v21 : IVec S1x600000 1 := cmpi .slt main_v19 main_v20
  let main_c_7 : IVec S_ 1 := constantI S_ 1 1#1
  let main_v22 : IVec S_ 1 := (fun x v => Host.reduce IntOp.andi x v reducesTo_S1x600000_S_d0_1 h_S_) main_v21 main_c_7
  let main_v23 : IVec S_ 1 := andi main_v18 main_v22
  let main_v24 : IVec S1x600000 32 := (extractStridedSlice S1x600000 ![1, 0] · slices_S4x600000_S1x600000_1_0) main_arg1
  let main_c_8 : IVec S_ 32 := constantI S_ 32 0#32
  let main_v25 : IVec S1x600000 32 := broadcastInDim S1x600000 ![] bcast_S_S1x600000 main_c_8
  let main_v26 : IVec S1x600000 1 := cmpi .sge main_v24 main_v25
  let main_c_9 : IVec S_ 1 := constantI S_ 1 1#1
  let main_v27 : IVec S_ 1 := (fun x v => Host.reduce IntOp.andi x v reducesTo_S1x600000_S_d0_1 h_S_) main_v26 main_c_9
  let main_v28 : IVec S_ 1 := andi main_v23 main_v27
  let main_v29 : IVec S1x600000 32 := (extractStridedSlice S1x600000 ![1, 0] · slices_S4x600000_S1x600000_1_0) main_arg1
  let main_c_10 : IVec S_ 32 := constantI S_ 32 50000#32
  let main_v30 : IVec S1x600000 32 := broadcastInDim S1x600000 ![] bcast_S_S1x600000 main_c_10
  let main_v31 : IVec S1x600000 1 := cmpi .slt main_v29 main_v30
  let main_c_11 : IVec S_ 1 := constantI S_ 1 1#1
  let main_v32 : IVec S_ 1 := (fun x v => Host.reduce IntOp.andi x v reducesTo_S1x600000_S_d0_1 h_S_) main_v31 main_c_11
  let main_v33 : IVec S_ 1 := andi main_v28 main_v32
  fn_part2 (F := F) main_arg1 main_v33

def fn {F : FTy → Type} [FloatOps F] (main_arg0 : FVec F S2x50000x128 .f32) (main_arg1 : IVec S4x600000 32) (main_arg2 : FVec F S64x128 .f32) (main_arg3 : FVec F S128x128 .f32) : IVec S_ 1 :=
  let main_v0 : FVec F S2x50000x128 .f32 := Host.absf main_arg0
  let main_cst : FVec F S_ .f32 := constant S_ .f32 0x7F800000#32
  let main_v1 : FVec F S2x50000x128 .f32 := broadcastInDim S2x50000x128 ![] bcast_S_S2x50000x128 main_cst
  let main_v2 : IVec S2x50000x128 1 := cmpf .olt main_v0 main_v1
  let main_c : IVec S_ 1 := constantI S_ 1 1#1
  let main_v3 : IVec S_ 1 := (fun x v => Host.reduce IntOp.andi x v reducesTo_S2x50000x128_S_d0_1_2 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : IVec S1x600000 32 := (extractStridedSlice S1x600000 ![0, 0] · slices_S4x600000_S1x600000_0_0) main_arg1
  let main_c_4 : IVec S_ 32 := constantI S_ 32 0#32
  let main_v15 : IVec S1x600000 32 := broadcastInDim S1x600000 ![] bcast_S_S1x600000 main_c_4
  let main_v16 : IVec S1x600000 1 := cmpi .sge main_v14 main_v15
  fn_part1 (F := F) main_arg1 main_v13 main_v16
-- ==== Kernel.lean ====
abbrev S2x50000x128 : Shape := ⟨3, ![2, 50000, 128]⟩
abbrev S4x600000 : Shape := ⟨2, ![4, 600000]⟩
abbrev S64x128 : Shape := ⟨2, ![64, 128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x2 : Shape := ⟨2, ![600000, 2]⟩
abbrev S600000x128 : Shape := ⟨2, ![600000, 128]⟩
abbrev S100000x128 : Shape := ⟨2, ![100000, 128]⟩
abbrev S6400000 : Shape := ⟨1, ![6400000]⟩
abbrev S100000x64 : Shape := ⟨2, ![100000, 64]⟩
abbrev S5000x128 : Shape := ⟨2, ![5000, 128]⟩
abbrev S5000x64 : Shape := ⟨2, ![5000, 64]⟩
abbrev S5000 : Shape := ⟨1, ![5000]⟩
abbrev S5000x1 : Shape := ⟨2, ![5000, 1]⟩

abbrev nBuf : Space → Nat
  | .hbm => 54
  | .vmem => 8
  | .smem => 0
  | _ => 0

abbrev bufTy : (tb : Table) → Fin (tcTables nBuf tb) → BufTy
  | .hbm, ⟨0, _⟩ => ⟨S2x50000x128, .f32⟩
  | .hbm, ⟨1, _⟩ => ⟨S4x600000, .i32⟩
  | .hbm, ⟨2, _⟩ => ⟨S64x128, .f32⟩
  | .hbm, ⟨3, _⟩ => ⟨S128x128, .f32⟩
  | .hbm, ⟨4, _⟩ => ⟨S1x600000, .i32⟩
  | .hbm, ⟨5, _⟩ => ⟨S600000, .i32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S_, .i32⟩
  | .hbm, ⟨17, _⟩ => ⟨S600000, .i32⟩
  | .hbm, ⟨18, _⟩ => ⟨S600000, .i1⟩
  | .hbm, ⟨19, _⟩ => ⟨S_, .i32⟩
  | .hbm, ⟨20, _⟩ => ⟨S600000, .i32⟩
  | .hbm, ⟨21, _⟩ => ⟨S600000, .i32⟩
  | .hbm, ⟨22, _⟩ => ⟨S600000, .i32⟩
  | .hbm, ⟨23, _⟩ => ⟨S_, .i32⟩
  | .hbm, ⟨24, _⟩ => ⟨S600000, .i32⟩
  | .hbm, ⟨25, _⟩ => ⟨S600000, .i1⟩
  | .hbm, ⟨26, _⟩ => ⟨S_, .i32⟩
  | .hbm, ⟨27, _⟩ => ⟨S600000, .i32⟩
  | .hbm, ⟨28, _⟩ => ⟨S600000, .i32⟩
  | .hbm, ⟨29, _⟩ => ⟨S600000, .i32⟩
  | .hbm, ⟨30, _⟩ => ⟨S600000x1, .i32⟩
  | .hbm, ⟨31, _⟩ => ⟨S600000x1, .i32⟩
  | .hbm, ⟨32, _⟩ => ⟨S600000x2, .i32⟩
  | .hbm, ⟨33, _⟩ => ⟨S600000x128, .f32⟩
  | .hbm, ⟨34, _⟩ => ⟨S_, .f32⟩
  | .hbm, ⟨35, _⟩ => ⟨S100000x128, .f32⟩
  | .hbm, ⟨36, _⟩ => ⟨S600000x1, .i32⟩
  | .hbm, ⟨37, _⟩ => ⟨S100000x128, .f32⟩
  | .hbm, ⟨38, _⟩ => ⟨S_, .i32⟩
  | .hbm, ⟨39, _⟩ => ⟨S600000, .i32⟩
  | .hbm, ⟨40, _⟩ => ⟨S600000, .i32⟩
  | .hbm, ⟨41, _⟩ => ⟨S600000, .i32⟩
  | .hbm, ⟨42, _⟩ => ⟨S_, .f32⟩
  | .hbm, ⟨43, _⟩ => ⟨S600000, .f32⟩
  | .hbm, ⟨44, _⟩ => ⟨S_, .f32⟩
  | .hbm, ⟨45, _⟩ => ⟨S6400000, .f32⟩
  | .hbm, ⟨46, _⟩ => ⟨S600000x1, .i32⟩
  | .hbm, ⟨47, _⟩ => ⟨S6400000, .f32⟩
  | .hbm, ⟨48, _⟩ => ⟨S100000x64, .f32⟩
  | .hbm, ⟨49, _⟩ => ⟨S128x128, .f32⟩
  | .hbm, ⟨50, _⟩ => ⟨S128x128, .bf16⟩
  | .hbm, ⟨51, _⟩ => ⟨S64x128, .bf16⟩
  | .hbm, ⟨52, _⟩ => ⟨S100000x128, .f32⟩
  | .hbm, ⟨53, _⟩ => ⟨S2x50000x128, .f32⟩
  | .local _ .vmem, ⟨0, _⟩ => ⟨S5000x128, .f32⟩
  | .local _ .vmem, ⟨1, _⟩ => ⟨S5000x128, .f32⟩
  | .local _ .vmem, ⟨2, _⟩ => ⟨S5000x64, .f32⟩
  | .local _ .vmem, ⟨3, _⟩ => ⟨S5000x64, .f32⟩
  | .local _ .vmem, ⟨4, _⟩ => ⟨S64x128, .bf16⟩
  | .local _ .vmem, ⟨5, _⟩ => ⟨S128x128, .bf16⟩
  | .local _ .vmem, ⟨6, _⟩ => ⟨S5000x128, .f32⟩
  | .local _ .vmem, ⟨7, _⟩ => ⟨S5000x128, .f32⟩
  | _, _ => ⟨S2x50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S4x600000_S1x600000_0_0 : S4x600000.Slices ![0, 0] S1x600000
  shapeCasts_S1x600000_S600000 : S1x600000.ShapeCasts S600000
  slices_S4x600000_S1x600000_1_0 : S4x600000.Slices ![1, 0] S1x600000
  slices_S4x600000_S1x600000_2_0 : S4x600000.Slices ![2, 0] S1x600000
  slices_S4x600000_S1x600000_3_0 : S4x600000.Slices ![3, 0] S1x600000
  bcast_S_S600000 : S_.BroadcastsInDim S600000 (![] : Fin 0 → Fin S600000.rank)
  bcast_S600000_S600000x1_0 : S600000.BroadcastsInDim S600000x1 (![0] : Fin 1 → Fin S600000x1.rank)
  concatenates_S600000x1_S600000x1_S600000x2_d1 : Shape.Concatenates [S600000x1, S600000x1] S600000x2 1
  bcast_S_S100000x128 : S_.BroadcastsInDim S100000x128 (![] : Fin 0 → Fin S100000x128.rank)
  bcast_S_S6400000 : S_.BroadcastsInDim S6400000 (![] : Fin 0 → Fin S6400000.rank)
  shapeCasts_S6400000_S100000x64 : S6400000.ShapeCasts S100000x64
  transposes_S128x128_S128x128_1_0 : S128x128.Transposes [1, 0] S128x128
  bitsLt_bf16_f32 : FTy.bits .bf16 < FTy.bits .f32
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  reduces_S5000x64_S5000 : S5000x64.Reduces [1] S5000
  shapeCasts_S5000_S5000x1 : S5000.ShapeCasts S5000x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S5000x1_S5000x128 : S5000x1.Broadcasts S5000x128
  shapeCasts_S100000x128_S2x50000x128 : S100000x128.ShapeCasts S2x50000x128
  gather_S2x50000x128_S600000x2_S600000x128_1_01_n_n_01_1_11128_wf : GatherDims.WF S2x50000x128 S600000x2 S600000x128 [1] [0, 1] [] [0, 1] [] 1 ![1, 1, 128]
  scatter_S100000x128_S600000x1_S600000x128_1_0_0_1_wf : ScatterDims.WF S100000x128 S600000x1 S600000x128 [1] [0] [0] 1
  scatter_S6400000_S600000x1_S600000_n_0_0_1_wf : ScatterDims.WF S6400000 S600000x1 S600000 [] [0] [0] 1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .bf16 = 32 ∨ (Rect.block (s := S64x128) S64x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)

variable [Facts₀]

def gather_S2x50000x128_S600000x2_S600000x128_1_01_n_n_01_1_11128 : GatherDims S2x50000x128 S600000x2 S600000x128 where
  offsetDims := [1]
  collapsedSliceDims := [0, 1]
  operandBatchingDims := []
  startIndicesBatchingDims := []
  startIndexMap := [0, 1]
  indexVectorDim := 1
  sliceSizes := ![1, 1, 128]
  wf := gather_S2x50000x128_S600000x2_S600000x128_1_01_n_n_01_1_11128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S6400000_S600000x1_S600000_n_0_0_1 : ScatterDims S6400000 S600000x1 S600000 where
  updateWindowDims := []
  insertedWindowDims := [0]
  scatterDimsToOperandDims := [0]
  indexVectorDim := 1
  wf := scatter_S6400000_S600000x1_S600000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v27) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v38) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v39) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x50000x128 : Shape := ⟨3, ![2, 50000, 128]⟩
abbrev S4x600000 : Shape := ⟨2, ![4, 600000]⟩
abbrev S64x128 : Shape := ⟨2, ![64, 128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x2 : Shape := ⟨2, ![600000, 2]⟩
abbrev S600000x128 : Shape := ⟨2, ![600000, 128]⟩
abbrev S100000x128 : Shape := ⟨2, ![100000, 128]⟩
abbrev S100000 : Shape := ⟨1, ![100000]⟩
abbrev S2x50000x1 : Shape := ⟨3, ![2, 50000, 1]⟩

abbrev nBuf : Space → Nat
  | .hbm => 60
  | .vmem => 0
  | .smem => 0
  | _ => 0

abbrev bufTy : (tb : Table) → Fin (tcTables nBuf tb) → BufTy
  | .hbm, ⟨0, _⟩ => ⟨S2x50000x128, .f32⟩
  | .hbm, ⟨1, _⟩ => ⟨S4x600000, .i32⟩
  | .hbm, ⟨2, _⟩ => ⟨S64x128, .f32⟩
  | .hbm, ⟨3, _⟩ => ⟨S128x128, .f32⟩
  | .hbm, ⟨4, _⟩ => ⟨S1x600000, .i32⟩
  | .hbm, ⟨5, _⟩ => ⟨S600000, .i32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S600000x1, .i32⟩
  | .hbm, ⟨28, _⟩ => ⟨S600000x2, .i32⟩
  | .hbm, ⟨29, _⟩ => ⟨S600000x128, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000x128, .f32⟩
  | .hbm, ⟨39, _⟩ => ⟨S600000x128, .f32⟩
  | .hbm, ⟨40, _⟩ => ⟨S128x128, .f32⟩
  | .hbm, ⟨41, _⟩ => ⟨S600000x128, .f32⟩
  | .hbm, ⟨42, _⟩ => ⟨S_, .i32⟩
  | .hbm, ⟨43, _⟩ => ⟨S600000, .i32⟩
  | .hbm, ⟨44, _⟩ => ⟨S600000, .i32⟩
  | .hbm, ⟨45, _⟩ => ⟨S600000, .i32⟩
  | .hbm, ⟨46, _⟩ => ⟨S_, .f32⟩
  | .hbm, ⟨47, _⟩ => ⟨S100000x128, .f32⟩
  | .hbm, ⟨48, _⟩ => ⟨S600000x1, .i32⟩
  | .hbm, ⟨49, _⟩ => ⟨S100000x128, .f32⟩
  | .hbm, ⟨50, _⟩ => ⟨S_, .f32⟩
  | .hbm, ⟨51, _⟩ => ⟨S600000, .f32⟩
  | .hbm, ⟨52, _⟩ => ⟨S_, .f32⟩
  | .hbm, ⟨53, _⟩ => ⟨S100000, .f32⟩
  | .hbm, ⟨54, _⟩ => ⟨S600000x1, .i32⟩
  | .hbm, ⟨55, _⟩ => ⟨S100000, .f32⟩
  | .hbm, ⟨56, _⟩ => ⟨S2x50000x128, .f32⟩
  | .hbm, ⟨57, _⟩ => ⟨S2x50000x1, .f32⟩
  | .hbm, ⟨58, _⟩ => ⟨S2x50000x128, .f32⟩
  | .hbm, ⟨59, _⟩ => ⟨S2x50000x128, .f32⟩
  | _, _ => ⟨S2x50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_3 : Ref sig .tc := ⟨.hbm, 30, rfl⟩
abbrev main_v22 : Ref sig .tc := ⟨.hbm, 31, rfl⟩
abbrev main_v23 : Ref sig .tc := ⟨.hbm, 32, rfl⟩
abbrev main_c_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]

class Facts₀ : Prop where
  slices_S4x600000_S1x600000_0_0 : S4x600000.Slices ![0, 0] S1x600000
  shapeCasts_S1x600000_S600000 : S1x600000.ShapeCasts S600000
  slices_S4x600000_S1x600000_1_0 : S4x600000.Slices ![1, 0] S1x600000
  slices_S4x600000_S1x600000_2_0 : S4x600000.Slices ![2, 0] S1x600000
  slices_S4x600000_S1x600000_3_0 : S4x600000.Slices ![3, 0] S1x600000
  bcast_S_S600000 : S_.BroadcastsInDim S600000 (![] : Fin 0 → Fin S600000.rank)
  bcast_S600000_S600000x1_0 : S600000.BroadcastsInDim S600000x1 (![0] : Fin 1 → Fin S600000x1.rank)
  concatenates_S600000x1_S600000x1_S600000x2_d1 : Shape.Concatenates [S600000x1, S600000x1] S600000x2 1
  transposes_S128x128_S128x128_1_0 : S128x128.Transposes [1, 0] S128x128
  bcast_S_S100000x128 : S_.BroadcastsInDim S100000x128 (![] : Fin 0 → Fin S100000x128.rank)
  bcast_S_S100000 : S_.BroadcastsInDim S100000 (![] : Fin 0 → Fin S100000.rank)
  shapeCasts_S100000x128_S2x50000x128 : S100000x128.ShapeCasts S2x50000x128
  shapeCasts_S100000_S2x50000x1 : S100000.ShapeCasts S2x50000x1
  bcast_S2x50000x1_S2x50000x128_0_1_2 : S2x50000x1.BroadcastsInDim S2x50000x128 (![0, 1, 2] : Fin 3 → Fin S2x50000x128.rank)
  gather_S2x50000x128_S600000x2_S600000x128_1_01_n_n_01_1_11128_wf : GatherDims.WF S2x50000x128 S600000x2 S600000x128 [1] [0, 1] [] [0, 1] [] 1 ![1, 1, 128]
  gather_S64x128_S600000x1_S600000x128_1_0_n_n_0_1_1128_wf : GatherDims.WF S64x128 S600000x1 S600000x128 [1] [0] [] [0] [] 1 ![1, 128]
  dot_S600000x128_S128x128_S600000x128_1_0_0_1_n_n_wf : DotDims.WF S600000x128 S128x128 S600000x128 [1] [0] [0] [1] [] []
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1

variable [Facts₀]

def gather_S2x50000x128_S600000x2_S600000x128_1_01_n_n_01_1_11128 : GatherDims S2x50000x128 S600000x2 S600000x128 where
  offsetDims := [1]
  collapsedSliceDims := [0, 1]
  operandBatchingDims := []
  startIndicesBatchingDims := []
  startIndexMap := [0, 1]
  indexVectorDim := 1
  sliceSizes := ![1, 1, 128]
  wf := gather_S2x50000x128_S600000x2_S600000x128_1_01_n_n_01_1_11128_wf
def gather_S64x128_S600000x1_S600000x128_1_0_n_n_0_1_1128 : GatherDims S64x128 S600000x1 S600000x128 where
  offsetDims := [1]
  collapsedSliceDims := [0]
  operandBatchingDims := []
  startIndicesBatchingDims := []
  startIndexMap := [0]
  indexVectorDim := 1
  sliceSizes := ![1, 128]
  wf := gather_S64x128_S600000x1_S600000x128_1_0_n_n_0_1_1128_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf

class Facts : Prop extends Facts₀ where

variable [Facts]
-- ==== Proof.LibMatmulRows.lean ====
/-
  A plain matrix product read at one entry. For a `tpu.matmul` of an `[M, K]` by a `[K, N]` operand into a
  zero accumulator, with one contracted axis (the left operand's columns against the right operand's rows), the
  entry `(p, q)` of the result at the extended reals is `∑ k, l (p, k) * r (k, q)`: the accumulator contributes `0`,
  and the one-axis contraction index is re-indexed by its coordinate `k : Fin K`.
  The dimension record enters only through four facts about its operand indices (which coordinate of the left and
  right operand index comes from the output index and which from the contraction index); for a printed record each
  is one line (`DotDims.lhsIdx_val_of_single`, `rhsIdx_val_of_single`, or unfolding `lhsIdx` / `rhsIdx`).
-/
import Idealize.ShloMosaic.PureOps.Ideal.Laws
import Idealize.ShloMosaic.Lib.ValueIdx

open scoped BigOperators

namespace Idealize.ShloMosaic.MatmulRows

open Idealize.ShloMosaic Idealize.ShloMosaic.ValueIdx

/-- Entry `(p, q)` of `l · r` accumulated into zero is the sum over the contracted coordinate. -/
theorem matmul_zero_apply {M K N : ℕ} {φ₁ φ₂ : FTy} (D : DotDims ⟨2, ![M, K]⟩ ⟨2, ![K, N]⟩ ⟨2, ![M, N]⟩)
    (prec : Option ContractPrecision) (hr : D.contr.rank = 1) (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (c ⟨0, by omega⟩).val)
    (hr1 : ∀ (i : (⟨2, ![M, N]⟩ : Shape).Idx) (c : D.contr.Idx), (D.rhsIdx i c 1).val = (i 1).val)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q) = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulRows
-- ==== Proof.LibKeepdims.lean ====
/-
  A column kept as a unit axis. A row-wise reduction with `keepdims` leaves a vector `[a]` that is
  viewed as a column `[a, 1]` and then spread along the rows of an `[a, b]` array. Read at an index
  given by its coordinates:
  • the column `[a, 1]` at `(p, u)` is the vector at `p` (the unit coordinate `u` can only be `0`);
  • the spread array at `(p, c)` is the column at `(p, 0)`, whatever the lane `c`.
  Both are the row-major position of the two indices compared: `p * 1 + 0 = p`.
-/
import Idealize.ShloMosaic.Lib.ValueLayout

namespace Idealize.ShloMosaic.Keepdims

open Idealize.ShloMosaic Idealize.ShloMosaic.ValueIdx

variable {α : Type}

/-- An `[a]` vector cast to the column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims
-- ==== Proof.BlockValue.lean ====
/-
  What one grid point computes, entry by entry.

  The body reads a tile of 5000 rows of the summed node states (s), the same rows of the relation-count table (c), the
  whole relation table (rl : [64, 128]) and the whole transposed weight (wt : [128, 128]). Entry (p, q) of what it stores is

      ( Σ_k ( s[p, k] − Σ_j c[p, j] · rl[j, k] ) · wt[k, q] )  /  ( Σ_j c[p, j] )

  on the extended reals: the two narrowing format changes are the identity, each matrix product into a zero
  accumulator is the plain sum over the contracted coordinate, and the row sum of c is kept as a column and
  broadcast along the row.
-/
import proofs.«178100_j24412594110749_2_alg».proof.Proof.Gen.KernelIdeal.Skeleton
import proofs.«178100_j24412594110749_2_alg».proof.Proof.LibMatmulRows
import proofs.«178100_j24412594110749_2_alg».proof.Proof.LibKeepdims
import Idealize.ShloMosaic.PureOps.Ideal.Laws
import Idealize.ShloMosaic.Lib.ValueIdx
import Idealize.ShloMosaic.Lib.Pipeline.Value

noncomputable section

namespace Cert.KernelIdeal.BlockValue

open Cert.KernelIdeal Cert.KernelIdeal.Gen Idealize.ShloMosaic Idealize.ShloMosaic.ValueIdx

/-! ## The two contractions' index facts -/

theorem d1_l0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide),
    dif_pos (show (0 : Fin S5000x64.rank) ∈ dot_S5000x64_S64x128_S5000x128_1_0_0_1_n_n.lhsNonContracting by decide)]
  rfl
theorem d1_l1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
theorem d1_r0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem d1_r1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide),
    dif_pos (show (1 : Fin S64x128.rank) ∈ dot_S5000x64_S64x128_S5000x128_1_0_0_1_n_n.rhsNonContracting by decide)]
  rfl

theorem d2_l0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem d2_l1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem d2_r0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem d2_r1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-! ## The pieces of the body, each at an index -/

/-- The count tile times the relation table, at (p, k). -/
theorem counts_times_rel (c : FVec Ideal S5000x64 .bf16) (rl : FVec Ideal S64x128 .bf16) (p : Fin 5000) (k : Fin 128) :
    matmul dot_S5000x64_S64x128_S5000x128_1_0_0_1_n_n none c rl (constant S5000x128 .f32 0x00000000#32) (ix2 p k)
      = ∑ j : Fin 64, c (ix2 p j) * rl (ix2 j k) :=
  MatmulRows.matmul_zero_apply dot_S5000x64_S64x128_S5000x128_1_0_0_1_n_n none rfl rfl d1_l0 d1_l1 d1_r0 d1_r1 c rl p k

/-- The projection by the transposed weight, at (p, q). -/
theorem times_weight (d : FVec Ideal S5000x128 .bf16) (wt : FVec Ideal S128x128 .bf16) (p : Fin 5000) (q : Fin 128) :
    matmul dot_S5000x128_S128x128_S5000x128_1_0_0_1_n_n none d wt (constant S5000x128 .f32 0x00000000#32) (ix2 p q)
      = ∑ k : Fin 128, d (ix2 p k) * wt (ix2 k q) :=
  MatmulRows.matmul_zero_apply dot_S5000x128_S128x128_S5000x128_1_0_0_1_n_n none rfl rfl d2_l0 d2_l1 d2_r0 d2_r1 d wt p q

/-- The row sum of the count tile, at row p. -/
theorem row_count (c : FVec Ideal S5000x64 .f32) (hφ : FKind.Formats .f32) (hacc : (0x00000000#32 : BitVec 32) = FKind.add.neutral .f32 hφ)
    (p : Fin 5000) :
    multiReduction .add [1] S5000 c 0x00000000#32 reduces_S5000x64_S5000 hφ hacc (ix1 p) = ∑ j : Fin 64, c (ix2 p j) := by
  refine (Ideal.multiReduction_add_single c 0x00000000#32 reduces_S5000x64_S5000 hφ hacc (ix1 p)).trans ?_
  refine Finset.sum_congr rfl fun j _ => congrArg c ?_
  funext a
  match a with
  | ⟨0, _⟩ => rfl
  | ⟨1, _⟩ => rfl

/-! ## The stored value at (p, q) -/

/-- Entry (p, q) of the block the body stores. -/
theorem pay_apply (c : Vec Ideal S5000x64 .f32) (rl : Vec Ideal S64x128 .bf16) (s : Vec Ideal S5000x128 .f32)
    (wt : Vec Ideal S128x128 .bf16) (p : Fin 5000) (q : Fin 128) :
    k0_pay1 (F := Ideal) c rl s wt (ix2 p q)
      = Ideal.div (∑ k : Fin 128, (s (ix2 p k) - ∑ j : Fin 64, c (ix2 p j) * rl (ix2 j k)) * wt (ix2 k q))
          (∑ j : Fin 64, c (ix2 p j)) := by
  unfold k0_pay1
  refine (divf_apply _ _ _).trans ?_
  refine congrArg₂ Ideal.div ?_ ?_
  · refine (times_weight _ _ p q).trans ?_
    refine Finset.sum_congr rfl fun k _ => ?_
    refine congrArg₂ (· * ·) ?_ (congrFun (shapeCast_self wt _) _)
    refine (truncf_apply (φ := .f32) (ψ := .bf16) _ bitsLt_bf16_f32 _).trans ?_
    refine (subf_apply _ _ _).trans ?_
    refine congrArg₂ (· - ·) (congrFun (shapeCast_self s _) _) ?_
    refine (counts_times_rel _ _ p k).trans ?_
    refine Finset.sum_congr rfl fun j _ => ?_
    refine congrArg₂ (· * ·) ?_ (congrFun (shapeCast_self rl _) _)
    exact (truncf_apply (φ := .f32) (ψ := .bf16) _ bitsLt_bf16_f32 _).trans (congrFun (shapeCast_self c _) _)
  · refine (Keepdims.broadcastTo_a1_ab_apply _ _ p q).trans ?_
    refine (Keepdims.shapeCast_a_a1_apply _ _ p 0).trans ?_
    refine (row_count _ _ _ p).trans ?_
    exact Finset.sum_congr rfl fun j _ => congrFun (shapeCast_self c _) _

/-- The same at any index of the block. -/
theorem pay_at (c : Vec Ideal S5000x64 .f32) (rl : Vec Ideal S64x128 .bf16) (s : Vec Ideal S5000x128 .f32)
    (wt : Vec Ideal S128x128 .bf16) (y : S5000x128.Idx) :
    k0_pay1 (F := Ideal) c rl s wt y
      = Ideal.div (∑ k : Fin 128, (s (ix2 (y 0) k) - ∑ j : Fin 64, c (ix2 (y 0) j) * rl (ix2 j k)) * wt (ix2 k (y 1)))
          (∑ j : Fin 64, c (ix2 (y 0) j)) := by
  obtain ⟨p, q, rfl⟩ : ∃ (p : Fin 5000) (q : Fin 128), y = ix2 p q := ⟨y 0, y 1, eq_ix2 y⟩
  exact pay_apply c rl s wt p q

end Cert.KernelIdeal.BlockValue

end
-- ==== Proof.KernelValue.lean ====
/-
  The table the kernel leaves, as one function of the four arrays its windows stage.

  The grid has 20 points; point t stages rows [5000 t, 5000 t + 5000) of the summed node states S and of the
  relation-count table C, the whole relation table and the whole transposed weight, and writes back the same rows of
  the result. A block's entry depends only on its own row of S and C, so the 20 written blocks are the restrictions
  of ONE function of the row s and the column o,

      slotValue S C rl wt s o = ( Σ_k ( S[s, k] − Σ_j C[s, j] · rl[j, k] ) · wt[k, o] ) / ( Σ_j C[s, j] ),

  and since the blocks tile the [100000, 128] result, the result array is that function.
-/
import proofs.«178100_j24412594110749_2_alg».proof.Proof.Gen.KernelIdeal.Frame
import proofs.«178100_j24412594110749_2_alg».proof.Proof.BlockValue
import Idealize.ShloMosaic.Lib.Pipeline.Value

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- Entry (s, o) of the result, from row s of S and C, the relation table and the transposed weight. -/
def slotValue (S : Vec Ideal S100000x128 .f32) (C : Vec Ideal S100000x64 .f32) (rl : Vec Ideal S64x128 .bf16)
    (wt : Vec Ideal S128x128 .bf16) (s : Fin 100000) (o : Fin 128) : EReal :=
  Ideal.div (∑ k : Fin 128, (S (ix2 s k) - ∑ j : Fin 64, C (ix2 s j) * rl (ix2 j k)) * wt (ix2 k o))
    (∑ j : Fin 64, C (ix2 s j))

/-- The result table. -/
def table (S : Vec Ideal S100000x128 .f32) (C : Vec Ideal S100000x64 .f32) (rl : Vec Ideal S64x128 .bf16)
    (wt : Vec Ideal S128x128 .bf16) : Vec Ideal S100000x128 .f32 :=
  fun i => slotValue S C rl wt (i 0) (i 1)

/-- The printed index maps over the 20 points: the two row-tiled inputs move with the output, the two tables stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- For ANY four arrays: the body's result on their blocks at point t is block t of their table. -/
theorem block_of_table (t : Fin cfg0.N) (A0 : Vec Ideal S100000x128 .f32) (A1 : Vec Ideal S100000x64 .f32)
    (A2 : Vec Ideal S64x128 .bf16) (A3 : Vec Ideal S128x128 .bf16) :
    (cfg0.win 4).cut (grid0.coords t)
        (out0_4 (((cfg0.win 0).blk t).view.read (Elt Ideal) A0) (((cfg0.win 1).blk t).view.read (Elt Ideal) A1)
          (((cfg0.win 2).blk t).view.read (Elt Ideal) A2) (((cfg0.win 3).blk t).view.read (Elt Ideal) A3))
      = ((cfg0.win 4).blk t).view.read (Elt Ideal) (table A0 A1 A2 A3) := by
  unfold out0_4
  rw [View.canon_unit_zero hz]
  simp only [View.ld_unit_zero (S := S5000x64) hz, View.ld_unit_zero (S := S64x128) hz,
    View.ld_unit_zero (S := S5000x128) hz, View.ld_unit_zero (S := S128x128) hz]
  obtain ⟨e00, e01, e10, e11, e20, e21, e30, e31, e40, e41⟩ := idx_facts t
  funext y
  refine (BlockValue.pay_at _ _ _ _ y).trans ?_
  obtain ⟨i, hi⟩ : ∃ i : S100000x128.Idx, i = ((cfg0.win 4).blk t).view.emb y := ⟨_, rfl⟩
  have hi0 : (i 0).val = win0_4.index t (0 : Fin 2) * 5000 + 1 * (y 0).val :=
    congrArg (fun f : S100000x128.Idx => (f 0).val) hi
  have hi1 : (i 1).val = win0_4.index t (1 : Fin 2) * 128 + 1 * (y 1).val :=
    congrArg (fun f : S100000x128.Idx => (f 1).val) hi
  have key : ∀ T : Vec Ideal S100000x128 .f32, ((cfg0.win 4).blk t).view.read (Elt Ideal) T y = T i :=
    fun T => by rw [hi]; rfl
  refine Eq.trans ?_ (key _).symm
  show _ = slotValue A0 A1 A2 A3 (i 0) (i 1)
  unfold slotValue
  have h0 : ∀ k : Fin 128, ((cfg0.win 0).blk t).view.read (Elt Ideal) A0 (ix2 (y 0) k) = A0 (ix2 (i 0) k) := fun k => by
    show A0 (((cfg0.win 0).blk t).view.emb (ix2 (y 0) k)) = _
    refine congrArg A0 ?_
    funext a; apply Fin.ext
    match a with
    | ⟨0, _⟩ => show win0_0.index t (0 : Fin 2) * 5000 + 1 * (y 0).val = (i 0).val; omega
    | ⟨1, _⟩ => show win0_0.index t (1 : Fin 2) * 128 + 1 * k.val = k.val; omega
  have h1 : ∀ j : Fin 64, ((cfg0.win 1).blk t).view.read (Elt Ideal) A1 (ix2 (y 0) j) = A1 (ix2 (i 0) j) := fun j => by
    show A1 (((cfg0.win 1).blk t).view.emb (ix2 (y 0) j)) = _
    refine congrArg A1 ?_
    funext a; apply Fin.ext
    match a with
    | ⟨0, _⟩ => show win0_1.index t (0 : Fin 2) * 5000 + 1 * (y 0).val = (i 0).val; omega
    | ⟨1, _⟩ => show win0_1.index t (1 : Fin 2) * 64 + 1 * j.val = j.val; omega
  have h2 : ∀ (j : Fin 64) (k : Fin 128), ((cfg0.win 2).blk t).view.read (Elt Ideal) A2 (ix2 j k) = A2 (ix2 j k) := fun j k => by
    show A2 (((cfg0.win 2).blk t).view.emb (ix2 j k)) = _
    refine congrArg A2 ?_
    funext a; apply Fin.ext
    match a with
    | ⟨0, _⟩ => show win0_2.index t (0 : Fin 2) * 64 + 1 * j.val = j.val; omega
    | ⟨1, _⟩ => show win0_2.index t (1 : Fin 2) * 128 + 1 * k.val = k.val; omega
  have h3 : ∀ k : Fin 128, ((cfg0.win 3).blk t).view.read (Elt Ideal) A3 (ix2 k (y 1)) = A3 (ix2 k (i 1)) := fun k => by
    show A3 (((cfg0.win 3).blk t).view.emb (ix2 k (y 1))) = _
    refine congrArg A3 ?_
    funext a; apply Fin.ext
    match a with
    | ⟨0, _⟩ => show win0_3.index t (0 : Fin 2) * 128 + 1 * k.val = k.val; omega
    | ⟨1, _⟩ => show win0_3.index t (1 : Fin 2) * 128 + 1 * (y 1).val = (i 1).val; omega
  simp only [h0, h1, h2, h3]

/-- WHAT POINT t WRITES BACK is block t of the table of the four staged arrays as the region finds them. -/
theorem flushed_eq (c : Dev nD) (t : Fin cfg0.N) :
    (dats m 0 c).flushed 4 t = ((cfg0.win 4).blk t).view.read (Elt Ideal)
      (table (V m c (Pipeline.arrRef spec0 0)) (V m c (Pipeline.arrRef spec0 1)) (V m c (Pipeline.arrRef spec0 2))
        (V m c (Pipeline.arrRef spec0 3))) := by
  show (cfg0.win 4).cut (grid0.coords t) ((dats m 0 c).after 4 t) = _
  rw [after0_4]
  exact block_of_table t _ _ _ _

/-- An index of the result is in point t's block iff each coordinate is in the block's range on its axis. -/
theorem mem_blk (t : Fin cfg0.N) (i : S100000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v39).slice (win0_4.rect t)).set ↔ _
  rw [View.set_slice_whole, Rect.mem_set_unit]
  exact Iff.rfl

/-- Every row of the result is in the block of the point that owns its 5000 rows. -/
theorem cover (i : S100000x128.Idx) :
    ∃ t : Fin cfg0.N, (cfg0.win 4).flush t = true ∧ i ∈ ((cfg0.win 4).blk t).view.set := by
  have hN : grid0.N = 20 := N_0
  have hi0 : (i 0).val < 100000 := (i 0).isLt
  have hi1 : (i 1).val < 128 := (i 1).isLt
  have ht : (i 0).val / 5000 < cfg0.N := by show (i 0).val / 5000 < grid0.N; omega
  refine ⟨⟨(i 0).val / 5000, ht⟩, flush0_4 _, ?_⟩
  rw [mem_blk]
  obtain ⟨-, -, -, -, -, -, -, -, e40, e41⟩ := idx_facts ⟨(i 0).val / 5000, ht⟩
  intro a
  match a with
  | ⟨0, _⟩ =>
    show win0_4.index ⟨(i 0).val / 5000, ht⟩ (0 : Fin 2) * 5000 ≤ (i 0).val
      ∧ (i 0).val < win0_4.index ⟨(i 0).val / 5000, ht⟩ (0 : Fin 2) * 5000 + 5000
    rw [e40]
    show (i 0).val / 5000 * 5000 ≤ (i 0).val ∧ (i 0).val < (i 0).val / 5000 * 5000 + 5000
    omega
  | ⟨1, _⟩ =>
    show win0_4.index ⟨(i 0).val / 5000, ht⟩ (1 : Fin 2) * 128 ≤ (i 1).val
      ∧ (i 1).val < win0_4.index ⟨(i 0).val / 5000, ht⟩ (1 : Fin 2) * 128 + 128
    omega

/-- THE RESULT ARRAY after the region is the table. -/
theorem final (c : Dev nD) :
    (dats m 0 c).arrAt 4 cfg0.N = table (V m c (Pipeline.arrRef spec0 0)) (V m c (Pipeline.arrRef spec0 1))
      (V m c (Pipeline.arrRef spec0 2)) (V m c (Pipeline.arrRef spec0 3)) :=
  (dats m 0 c).arrAt_eq_of_cover 4 _ (fun t _ => flushed_eq m c t) cover

end Cert.KernelIdeal.ArrayValue

end
-- ==== Proof.KernelRun.lean ====
/-
  The kernel's run, with its result named.

  After the region the only host line reshapes the [100000, 128] table to [2, 50000, 128]: slot s = 50000 b + n becomes
  (b, n). So every weakly fair execution ends with the result at that reshape of the table of the four staged arrays,
  and the four argument arrays as they were.
-/
import proofs.«178100_j24412594110749_2_alg».proof.Proof.KernelValue
import Idealize.ShloMosaic.Lib.StableHlo.Run

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-- The result array as a function of the staged arrays: the table, reshaped. -/
def result (c : Dev nD) : Vec Ideal S2x50000x128 .f32 :=
  shapeCast S2x50000x128
    (table (V m c (Pipeline.arrRef spec0 0)) (V m c (Pipeline.arrRef spec0 1)) (V m c (Pipeline.arrRef spec0 2))
      (V m c (Pipeline.arrRef spec0 3))) shapeCasts_S100000x128_S2x50000x128

/-- What the line after the region leaves in the result buffer. -/
theorem tail_value (c : Dev nD) :
    Pipeline.afterTail₀ cfgs (dats m) 0 (V0 m) [hostOps1] c main_v40 = result m c := by
  have h : Pipeline.withArrays (cfgs 0).spec c (V0 m c) (fun w => (dats m 0 c).arrAt w (cfgs 0).N) (Proc.devRef .tc main_v39)
      = table (V m c (Pipeline.arrRef spec0 0)) (V m c (Pipeline.arrRef spec0 1)) (V m c (Pipeline.arrRef spec0 2))
          (V m c (Pipeline.arrRef spec0 3)) :=
    (Pipeline.withArrays_arr spec0 launch0.win.arr_inj c _ _ 4).trans (final m c)
  unfold Pipeline.afterTail₀
  show StableHlo.after hostOps1 _ (Proc.devRef .tc main_v40) = _
  after_results
  exact congrArg (fun X => shapeCast S2x50000x128 X shapeCasts_S100000x128_S2x50000x128) h

/-- THE KERNEL'S RUN: the result buffer ends at `result`, the arguments unchanged. -/
theorem run : θ_run defs (onTc (τ := τ) (main (F := Ideal))) ⟨m, fun _ => 0, ρ⟩ fun r => ∀ c : Dev nD,
      r.2.mem ((c.tc : Thread nD τ).loc main_v40) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v40 (Pipeline.mem_restRefs_of main_v40 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.ArrayValue

end
-- ==== Proof.ScatterRead.lean ====
/-
  Host scatters that accumulate, and one host gather, read at an index.

  A scatter-add of edge payloads into slots: the scatter indices are an [E, 1] column of signed words, update row e
  goes to the slot its word names, and a word outside [0, M) drops the row. At the exact instance the result at slot s
  is therefore the operand's entry plus the sum, over the edges whose word is s, of their payload: this is stated for
  rows of width N scattered into an [M, N] table, and for scalars scattered into an [M] vector. The gather reads row
  idx[e] of an [R, N] table for every edge e, the word read signed and clamped into [0, R - 1].
-/
import Idealize.ShloMosaic.PureOps.Ideal
import Idealize.ShloMosaic.Lib.ValueIdx

noncomputable section

namespace Cert.ScatterRead

open Idealize.ShloMosaic Idealize.ShloMosaic.ValueIdx

/-- Rows of width N scattered into an [M, N] table by an [E, 1] column of slot words. -/
abbrev rowsDims (M N E : Nat) (wf : ScatterDims.WF ⟨2, ![M, N]⟩ ⟨2, ![E, 1]⟩ ⟨2, ![E, N]⟩ [1] [0] [0] 1) :
    ScatterDims ⟨2, ![M, N]⟩ ⟨2, ![E, 1]⟩ ⟨2, ![E, N]⟩ where
  updateWindowDims := [1]
  insertedWindowDims := [0]
  scatterDimsToOperandDims := [0]
  indexVectorDim := 1
  wf := wf

/-- Scalars scattered into an [M] vector by an [E, 1] column of slot words. -/
abbrev flatDims (M E : Nat) (wf : ScatterDims.WF ⟨1, ![M]⟩ ⟨2, ![E, 1]⟩ ⟨1, ![E]⟩ [] [0] [0] 1) :
    ScatterDims ⟨1, ![M]⟩ ⟨2, ![E, 1]⟩ ⟨1, ![E]⟩ where
  updateWindowDims := []
  insertedWindowDims := [0]
  scatterDimsToOperandDims := [0]
  indexVectorDim := 1
  wf := wf

section Rows
variable {M N E w : Nat} (wf : ScatterDims.WF ⟨2, ![M, N]⟩ ⟨2, ![E, 1]⟩ ⟨2, ![E, N]⟩ [1] [0] [0] 1)

/-- The word of update row e. -/
theorem rows_siIdx (j : (⟨2, ![E, N]⟩ : Shape).Idx) (c : Fin (rowsDims M N E wf).scatterDimsToOperandDims.length) :
    (rowsDims M N E wf).siIdx j c = ix2 (j 0) (0 : Fin 1) := by
  funext b; refine Fin.ext ?_
  match b with
  | ⟨0, _⟩ => rfl
  | ⟨1, _⟩ => (have hc : c.val < 1 := c.isLt; show c.val = 0; omega)

theorem rows_start0 (j : (⟨2, ![E, N]⟩ : Shape).Idx) (idx : IVec ⟨2, ![E, 1]⟩ w) :
    (rowsDims M N E wf).start j idx 0 = (idx (ix2 (j 0) (0 : Fin 1))).toInt := by
  unfold ScatterDims.start
  rw [dif_pos (show (0 : Fin 2) ∈ (rowsDims M N E wf).scatterDimsToOperandDims from List.mem_singleton.mpr rfl), rows_siIdx]
  rfl

theorem rows_start1 (j : (⟨2, ![E, N]⟩ : Shape).Idx) (idx : IVec ⟨2, ![E, 1]⟩ w) :
    (rowsDims M N E wf).start j idx 1 = 0 := by
  unfold ScatterDims.start
  rw [dif_neg (show (1 : Fin 2) ∉ [(0 : Fin 2)] from by decide)]

theorem rows_window0 (j : (⟨2, ![E, N]⟩ : Shape).Idx) : (rowsDims M N E wf).window j 0 = 0 := by
  unfold ScatterDims.window
  have h : (0 : Fin 2) ∉ (rowsDims M N E wf).sKept :=
    (show (0 : Fin 2) ∉ (List.finRange 2).filter (fun a => a ∉ [(0 : Fin 2)]) from by decide)
  rw [dif_neg h]

theorem rows_window1 (j : (⟨2, ![E, N]⟩ : Shape).Idx) : (rowsDims M N E wf).window j 1 = (j 1).val := by
  unfold ScatterDims.window
  have h : (1 : Fin 2) ∈ (rowsDims M N E wf).sKept :=
    (show (1 : Fin 2) ∈ (List.finRange 2).filter (fun a => a ∉ [(0 : Fin 2)]) from by decide)
  rw [dif_pos h]
  rfl

/-- Update (e, k) lands on slot (s, o) exactly when the word of edge e is s and k = o. -/
theorem rows_lands (j : (⟨2, ![E, N]⟩ : Shape).Idx) (idx : IVec ⟨2, ![E, 1]⟩ w) (i : (⟨2, ![M, N]⟩ : Shape).Idx) :
    (rowsDims M N E wf).resultIdx? j idx = some i ↔ (idx (ix2 (j 0) (0 : Fin 1))).toInt = ((i 0).val : Int) ∧ (j 1).val = (i 1).val := by
  unfold ScatterDims.resultIdx?
  have hi0 := (i 0).isLt
  have hi1 := (i 1).isLt
  have hj1 := (j 1).isLt
  have e0 : (⟨2, ![M, N]⟩ : Shape).size 0 = M := rfl
  have e1 : (⟨2, ![M, N]⟩ : Shape).size 1 = N := rfl
  have f1 : (⟨2, ![E, N]⟩ : Shape).size 1 = N := rfl
  split
  · rename_i h
    rw [Option.some.injEq]
    constructor
    · intro hfi
      have h0 := congrArg (fun f => (f 0).val) hfi
      have h1 := congrArg (fun f => (f 1).val) hfi
      simp only [rows_start0, rows_start1, rows_window0, rows_window1] at h0 h1
      have hh := h 0
      simp only [rows_start0, rows_window0] at hh
      constructor
      · omega
      · omega
    · rintro ⟨h0, h1⟩
      funext a; refine Fin.ext ?_
      match a with
      | ⟨0, _⟩ => (show ((rowsDims M N E wf).start j idx 0 + ((rowsDims M N E wf).window j 0 : Int)).toNat = (i 0).val; rw [rows_start0, rows_window0, h0]; simp)
      | ⟨1, _⟩ => (show ((rowsDims M N E wf).start j idx 1 + ((rowsDims M N E wf).window j 1 : Int)).toNat = (i 1).val; rw [rows_start1, rows_window1, ← h1]; simp)
  · rename_i h
    constructor
    · intro hc; cases hc
    · rintro ⟨h0, h1⟩
      exfalso; apply h
      intro a
      match a with
      | ⟨0, _⟩ => (show 0 ≤ (rowsDims M N E wf).start j idx 0 + ((rowsDims M N E wf).window j 0 : Int) ∧ (rowsDims M N E wf).start j idx 0 + ((rowsDims M N E wf).window j 0 : Int) < (M : Int); rw [rows_start0, rows_window0, h0]; omega)
      | ⟨1, _⟩ => (show 0 ≤ (rowsDims M N E wf).start j idx 1 + ((rowsDims M N E wf).window j 1 : Int) ∧ (rowsDims M N E wf).start j idx 1 + ((rowsDims M N E wf).window j 1 : Int) < (N : Int); rw [rows_start1, rows_window1]; omega)

/-- THE ROW SCATTER READ AT (s, o): the operand's entry plus the payloads, at column o, of the edges whose word is s. -/
theorem rows_apply (x : (⟨2, ![M, N]⟩ : Shape).Idx → EReal) (idx : IVec ⟨2, ![E, 1]⟩ w)
    (upd : (⟨2, ![E, N]⟩ : Shape).Idx → EReal) (s : Fin M) (o : Fin N) :
    Ideal.hostScatterAdd (rowsDims M N E wf) x idx upd (ix2 s o)
      = x (ix2 s o) + ∑ e : Fin E, if (idx (ix2 e (0 : Fin 1))).toInt = (s.val : Int) then upd (ix2 e o) else 0 := by
  unfold Ideal.hostScatterAdd
  congr 1
  rw [Finset.sum_filter, sum_idx2]
  refine Finset.sum_congr rfl fun e _ => ?_
  refine (Finset.sum_congr rfl fun k _ => (if_congr (rows_lands wf (ix2 e k) idx (ix2 s o)) rfl rfl)).trans ?_
  show (∑ k : Fin N, if (idx (ix2 e (0 : Fin 1))).toInt = (s.val : Int) ∧ k.val = o.val then upd (ix2 e k) else 0) = _
  by_cases h : (idx (ix2 e (0 : Fin 1))).toInt = (s.val : Int)
  · simp only [h, true_and, Fin.val_inj, Finset.sum_ite_eq', Finset.mem_univ, if_true]
  · simp only [h, false_and, if_false, Finset.sum_const_zero]

/-- The same for the host scatter-add at any record that IS these dimension numbers. -/
theorem rows_apply_of (d : ScatterDims ⟨2, ![M, N]⟩ ⟨2, ![E, 1]⟩ ⟨2, ![E, N]⟩) (hd : d = rowsDims M N E wf)
    (x : FVec Ideal ⟨2, ![M, N]⟩ .f32) (idx : IVec ⟨2, ![E, 1]⟩ w) (upd : FVec Ideal ⟨2, ![E, N]⟩ .f32) (s : Fin M) (o : Fin N) :
    Host.scatterAdd d x idx upd (ix2 s o)
      = x (ix2 s o) + ∑ e : Fin E, if (idx (ix2 e (0 : Fin 1))).toInt = (s.val : Int) then upd (ix2 e o) else 0 := by
  subst hd
  show Ideal.hostScatterAdd (rowsDims M N E wf) x idx upd (ix2 s o) = _
  exact rows_apply wf x idx upd s o

end Rows

section Flat
variable {M E w : Nat} (wf : ScatterDims.WF ⟨1, ![M]⟩ ⟨2, ![E, 1]⟩ ⟨1, ![E]⟩ [] [0] [0] 1)

/-- A one-axis index set is its coordinate. -/
def idxEquiv1 {n : Nat} : (⟨1, ![n]⟩ : Shape).Idx ≃ Fin n where
  toFun i := i 0
  invFun p := ix1 p
  left_inv i := (eq_ix1 i).symm
  right_inv _ := rfl

theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

theorem flat_siIdx (j : (⟨1, ![E]⟩ : Shape).Idx) (c : Fin (flatDims M E wf).scatterDimsToOperandDims.length) :
    (flatDims M E wf).siIdx j c = ix2 (j 0) (0 : Fin 1) := by
  funext b; refine Fin.ext ?_
  match b with
  | ⟨0, _⟩ => rfl
  | ⟨1, _⟩ => (have hc : c.val < 1 := c.isLt; show c.val = 0; omega)

theorem flat_start0 (j : (⟨1, ![E]⟩ : Shape).Idx) (idx : IVec ⟨2, ![E, 1]⟩ w) :
    (flatDims M E wf).start j idx 0 = (idx (ix2 (j 0) (0 : Fin 1))).toInt := by
  unfold ScatterDims.start
  rw [dif_pos (show (0 : Fin 1) ∈ (flatDims M E wf).scatterDimsToOperandDims from List.mem_singleton.mpr rfl), flat_siIdx]
  rfl

theorem flat_window0 (j : (⟨1, ![E]⟩ : Shape).Idx) : (flatDims M E wf).window j 0 = 0 := by
  unfold ScatterDims.window
  have h : (0 : Fin 1) ∉ (flatDims M E wf).sKept :=
    (show (0 : Fin 1) ∉ (List.finRange 1).filter (fun a => a ∉ [(0 : Fin 1)]) from by decide)
  rw [dif_neg h]

/-- Update e lands on slot s exactly when the word of edge e is s. -/
theorem flat_lands (j : (⟨1, ![E]⟩ : Shape).Idx) (idx : IVec ⟨2, ![E, 1]⟩ w) (i : (⟨1, ![M]⟩ : Shape).Idx) :
    (flatDims M E wf).resultIdx? j idx = some i ↔ (idx (ix2 (j 0) (0 : Fin 1))).toInt = ((i 0).val : Int) := by
  unfold ScatterDims.resultIdx?
  have hi0 := (i 0).isLt
  have e0 : (⟨1, ![M]⟩ : Shape).size 0 = M := rfl
  split
  · rename_i h
    rw [Option.some.injEq]
    constructor
    · intro hfi
      have h0 := congrArg (fun f => (f 0).val) hfi
      simp only [flat_start0, flat_window0] at h0
      have hh := h 0
      simp only [flat_start0, flat_window0] at hh
      omega
    · intro h0
      funext a; refine Fin.ext ?_
      obtain rfl : a = 0 := Subsingleton.elim _ _
      show ((flatDims M E wf).start j idx 0 + ((flatDims M E wf).window j 0 : Int)).toNat = (i 0).val
      rw [flat_start0, flat_window0, h0]; simp
  · rename_i h
    constructor
    · intro hc; cases hc
    · intro h0
      exfalso; apply h
      intro a
      obtain rfl : a = 0 := Subsingleton.elim _ _
      show 0 ≤ (flatDims M E wf).start j idx 0 + ((flatDims M E wf).window j 0 : Int) ∧ (flatDims M E wf).start j idx 0 + ((flatDims M E wf).window j 0 : Int) < (M : Int)
      rw [flat_start0, flat_window0, h0]; omega

/-- THE SCALAR SCATTER READ AT s: the operand's entry plus the payloads of the edges whose word is s. -/
theorem flat_apply (x : (⟨1, ![M]⟩ : Shape).Idx → EReal) (idx : IVec ⟨2, ![E, 1]⟩ w)
    (upd : (⟨1, ![E]⟩ : Shape).Idx → EReal) (s : Fin M) :
    Ideal.hostScatterAdd (flatDims M E wf) x idx upd (ix1 s)
      = x (ix1 s) + ∑ e : Fin E, if (idx (ix2 e (0 : Fin 1))).toInt = (s.val : Int) then upd (ix1 e) else 0 := by
  unfold Ideal.hostScatterAdd
  congr 1
  rw [Finset.sum_filter, sum_idx1]
  exact Finset.sum_congr rfl fun e _ => if_congr (flat_lands wf (ix1 e) idx (ix1 s)) rfl rfl

/-- The same for the host scatter-add at any record that IS these dimension numbers. -/
theorem flat_apply_of (d : ScatterDims ⟨1, ![M]⟩ ⟨2, ![E, 1]⟩ ⟨1, ![E]⟩) (hd : d = flatDims M E wf)
    (x : FVec Ideal ⟨1, ![M]⟩ .f32) (idx : IVec ⟨2, ![E, 1]⟩ w) (upd : FVec Ideal ⟨1, ![E]⟩ .f32) (s : Fin M) :
    Host.scatterAdd d x idx upd (ix1 s)
      = x (ix1 s) + ∑ e : Fin E, if (idx (ix2 e (0 : Fin 1))).toInt = (s.val : Int) then upd (ix1 e) else 0 := by
  subst hd
  show Ideal.hostScatterAdd (flatDims M E wf) x idx upd (ix1 s) = _
  exact flat_apply wf x idx upd s

end Flat

section RowGather
variable {α : Type} {R N E w : Nat}

/-- Row idx[e] of an [R, N] table for every edge e: one start index per edge, the row axis collapsed. -/
abbrev rowGatherDims (R N E : Nat)
    (wf : GatherDims.WF ⟨2, ![R, N]⟩ ⟨2, ![E, 1]⟩ ⟨2, ![E, N]⟩ [1] [0] [] [0] [] 1 ![1, N]) :
    GatherDims ⟨2, ![R, N]⟩ ⟨2, ![E, 1]⟩ ⟨2, ![E, N]⟩ where
  offsetDims := [1]
  collapsedSliceDims := [0]
  operandBatchingDims := []
  startIndicesBatchingDims := []
  startIndexMap := [0]
  indexVectorDim := 1
  sliceSizes := ![1, N]
  wf := wf

variable (wf : GatherDims.WF ⟨2, ![R, N]⟩ ⟨2, ![E, 1]⟩ ⟨2, ![E, N]⟩ [1] [0] [] [0] [] 1 ![1, N])

/-- THE ROW GATHER READ AT (e, k): the table at row idx[e] (signed, clamped into [0, R - 1]) and column k. -/
theorem rowGather_apply (hR : 0 < R) (x : (⟨2, ![R, N]⟩ : Shape).Idx → α) (idx : IVec ⟨2, ![E, 1]⟩ w) (e : Fin E) (k : Fin N) :
    Host.gather (rowGatherDims R N E wf) x idx (ix2 e k)
      = x (ix2 ⟨min (idx (ix2 e (0 : Fin 1))).toInt.toNat (R - 1), by omega⟩ k) := by
  unfold Host.gather
  congr 1
  funext a
  refine Fin.ext ?_
  match a with
  | ⟨0, _⟩ =>
    show (rowGatherDims R N E wf).start (ix2 e k) idx 0 + (rowGatherDims R N E wf).batchCoord (ix2 e k) 0
      + (rowGatherDims R N E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims R N E wf).startIndexMap from List.mem_singleton.mpr rfl)]
    have hsi : (rowGatherDims R N E wf).siIdx (ix2 e k) ⟨List.idxOf (0 : Fin 2) (rowGatherDims R N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims R N E wf).start (ix2 e k) idx 1 + (rowGatherDims R N E wf).batchCoord (ix2 e k) 1
      + (rowGatherDims R N E wf).offCoord (ix2 e k) 1 = k.val
    rw [GatherDims.batchCoord_eq_zero _ _ _ List.not_mem_nil]
    have hs : (rowGatherDims R N E wf).start (ix2 e k) idx 1 = 0 := by
      unfold GatherDims.start
      rw [dif_neg (show (1 : Fin 2) ∉ [(0 : Fin 2)] from by decide)]
    have ho : (rowGatherDims R N E wf).offCoord (ix2 e k) 1 = k.val := by
      unfold GatherDims.offCoord
      have h : (1 : Fin 2) ∈ (rowGatherDims R N E wf).sKept :=
        (show (1 : Fin 2) ∈ (List.finRange 2).filter (fun a => a ∉ ([(0 : Fin 2)] ++ [])) from by decide)
      rw [dif_pos h]
      rfl
    rw [hs, ho]; simp

end RowGather

end Cert.ScatterRead

end
-- ==== Proof.KernelEntry.lean ====
/-
  The four arrays the launch stages, as the host lines before it leave them.

  S, the node rows summed per slot: the gathered node rows (the same gather, at the same normalised batch and source
  words, as the reference's) scatter-added at the slot word batch · 50000 + target. C, the relation counts: a one per
  edge scatter-added at the key slot · 64 + relation into a flat [6400000] vector, then cut into rows of 64. The
  relation table and the transposed weight pass through a narrowing format change, the identity on extended reals.
  The integer lines shared with the reference are written here with the reference's own stages, which they equal term
  for term.
-/
import proofs.«178100_j24412594110749_2_alg».proof.Proof.Gen.KernelIdeal.Frame
import proofs.«178100_j24412594110749_2_alg».proof.Proof.Gen.ReferenceIdeal.Read
import proofs.«178100_j24412594110749_2_alg».proof.Proof.ScatterRead
import Idealize.ShloMosaic.Lib.StableHlo.Run
import Idealize.ShloMosaic.Lib.Pipeline.Value

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx
open Cert.ReferenceIdeal.Read

/-- S: the gathered node rows, summed into the slot each edge's word names. -/
def nodeSum (x0 : FVec Ideal S2x50000x128 .f32) (x1 : IVec S4x600000 32) : FVec Ideal S100000x128 .f32 :=
  Host.scatterAdd scatter_S100000x128_S600000x1_S600000x128_1_0_0_1 (val_main_v35 (F := Ideal)) (val_main_v36 (F := Ideal) x1)
    (val_main_v21 (F := Ideal) x0 x1)

/-- The key slot · 64 + relation of each edge, in wrapping 32-bit arithmetic. -/
def slotKey (x1 : IVec S4x600000 32) : IVec S600000 32 :=
  addi (muli (val_main_v34 (F := Ideal) x1) (broadcastInDim S600000 ![] bcast_S_S600000 (constantI S_ 32 64#32)))
    (val_main_v7 (F := Ideal) x1)

/-- The flat count vector: a one per edge at its key. -/
def keyCount (x1 : IVec S4x600000 32) : FVec Ideal S6400000 .f32 :=
  Host.scatterAdd scatter_S6400000_S600000x1_S600000_n_0_0_1
    (broadcastInDim S6400000 ![] bcast_S_S6400000 (constant (F := Ideal) S_ .f32 0x00000000#32))
    (broadcastInDim S600000x1 ![0] bcast_S600000_S600000x1_0 (slotKey x1))
    (broadcastInDim S600000 ![] bcast_S_S600000 (constant (F := Ideal) S_ .f32 0x3F800000#32))

/-- C: the counts as rows of 64 relations per slot. -/
def relCount (x1 : IVec S4x600000 32) : FVec Ideal S100000x64 .f32 :=
  shapeCast S100000x64 (keyCount x1) shapeCasts_S6400000_S100000x64

/-- The relation table as staged: a narrowing format change of the argument, the identity on extended reals. -/
def relTab (x2 : FVec Ideal S64x128 .f32) : FVec Ideal S64x128 .bf16 := truncf .bf16 x2 bitsLt_bf16_f32

/-- The weight as staged: transposed, then the same format change. -/
def weightT (x3 : FVec Ideal S128x128 .f32) : FVec Ideal S128x128 .bf16 :=
  truncf .bf16 (val_main_v30 (F := Ideal) x3) bitsLt_bf16_f32

variable (m : (ℓ : Loc nD τ sig) → Buf (Elt Ideal) ℓ)

set_option maxRecDepth 8192 in
set_option maxHeartbeats 2000000 in
theorem entry0 (c : Dev nD) :
    (V m c (Pipeline.arrRef spec0 0) : FVec Ideal S100000x128 .f32)
      = nodeSum (m ((c : Thread nD τ).loc main_arg0)) (m ((c : Thread nD τ).loc main_arg1)) := by
  show StableHlo.after hostOps0 (fun b => m (c, b)) (Proc.devRef .tc main_v27) = _
  after_results_simp <;> rfl

set_option maxRecDepth 8192 in
set_option maxHeartbeats 2000000 in
theorem entry1 (c : Dev nD) :
    (V m c (Pipeline.arrRef spec0 1) : FVec Ideal S100000x64 .f32) = relCount (m ((c : Thread nD τ).loc main_arg1)) := by
  show StableHlo.after hostOps0 (fun b => m (c, b)) (Proc.devRef .tc main_v35) = _
  after_results_simp <;> rfl

set_option maxRecDepth 8192 in
set_option maxHeartbeats 2000000 in
theorem entry2 (c : Dev nD) :
    (V m c (Pipeline.arrRef spec0 2) : FVec Ideal S64x128 .bf16) = relTab (m ((c : Thread nD τ).loc main_arg2)) := by
  show StableHlo.after hostOps0 (fun b => m (c, b)) (Proc.devRef .tc main_v38) = _
  after_results_simp <;> rfl

set_option maxRecDepth 8192 in
set_option maxHeartbeats 2000000 in
theorem entry3 (c : Dev nD) :
    (V m c (Pipeline.arrRef spec0 3) : FVec Ideal S128x128 .bf16) = weightT (m ((c : Thread nD τ).loc main_arg3)) := by
  show StableHlo.after hostOps0 (fun b => m (c, b)) (Proc.devRef .tc main_v37) = _
  after_results_simp <;> rfl

end Cert.KernelIdeal.Entry

end
-- ==== Proof.RefValue.lean ====
/-
  The reference's result, entry by entry.

  The reference projects every edge's difference (gathered node row − its relation's row) by the transposed weight,
  scatter-adds the projected rows into the slot the edge's word names, scatter-adds a one per edge into the same
  slots, and divides. Entry (b, n, o) of its result is therefore, with s = 50000 b + n,

      ( 0 + Σ_{e : word e = s} Σ_k (H[e, k] − R[e, k]) · W[o, k] )  /  ( 0 + Σ_{e : word e = s} 1 ),

  where H is the gathered node rows, R[e, ·] the relation table's row at the edge's (normalised, clamped) relation
  word, and the word of edge e is batch · 50000 + target in wrapping 32-bit arithmetic.
-/
import proofs.«178100_j24412594110749_2_alg».proof.Proof.Gen.ReferenceIdeal.Read
import proofs.«178100_j24412594110749_2_alg».proof.Proof.ScatterRead

set_option maxRecDepth 16384

noncomputable section

namespace Cert.ReferenceIdeal.RefValue

open Cert.ReferenceIdeal Cert.ReferenceIdeal.Gen Cert.ReferenceIdeal.Read
open Idealize.ShloMosaic Idealize.ShloMosaic.ValueIdx

variable (x0 : (⟨S2x50000x128, .f32⟩ : BufTy).Contents (Elt Ideal)) (x1 : (⟨S4x600000, .i32⟩ : BufTy).Contents (Elt Ideal))
  (x2 : (⟨S64x128, .f32⟩ : BufTy).Contents (Elt Ideal)) (x3 : (⟨S128x128, .f32⟩ : BufTy).Contents (Elt Ideal))

/-! ## Index functions of the generated stages, at coordinates -/

theorem col27 (e : Fin 600000) : idx_main_v27 (ix2 e (0 : Fin 1)) = ix1 e :=
  funext fun a => match a with | ⟨0, _⟩ => rfl
theorem col36 (e : Fin 600000) : idx_main_v36 (ix2 e (0 : Fin 1)) = ix1 e :=
  funext fun a => match a with | ⟨0, _⟩ => rfl
theorem col40 (e : Fin 600000) : idx_main_v40 (ix2 e (0 : Fin 1)) = ix1 e :=
  funext fun a => match a with | ⟨0, _⟩ => rfl
theorem lidx31 (e : Fin 600000) (o k : Fin 128) : lidx_main_v31 (ix2 e o) k = ix2 e k :=
  funext fun a => match a with | ⟨0, _⟩ => rfl | ⟨1, _⟩ => rfl
theorem ridx31 (e : Fin 600000) (o k : Fin 128) : idx_main_v30 (ridx_main_v31 (ix2 e o) k) = ix2 o k :=
  funext fun a => match a with | ⟨0, _⟩ => rfl | ⟨1, _⟩ => rfl
theorem idx35 (i : S100000x128.Idx) : val_main_v35 (F := Ideal) i = Ideal.ofBits .f32 0x00000000#32 := by
  rw [val_main_v35_apply, val_main_cst_apply]; rfl
theorem idx39 (i : S100000.Idx) : val_main_v39 (F := Ideal) i = Ideal.ofBits .f32 0x00000000#32 := by
  rw [val_main_v39_apply, val_main_cst_7_apply]; rfl
theorem idx38 (i : S600000.Idx) : val_main_v38 (F := Ideal) i = Ideal.ofBits .f32 0x3F800000#32 := by
  rw [val_main_v38_apply, val_main_cst_6_apply]; rfl

/-- Row r of the integer input, as the slice-then-flatten reads it. -/
theorem row0 (e : Fin 600000) : val_main_v1 (F := Ideal) x1 (ix1 e) = x1 (ix2 (0 : Fin 4) e) := by
  rw [val_main_v1_apply, val_main_v0_apply]
  refine congrArg x1 ?_
  funext a; apply Fin.ext
  match a with
  | ⟨0, _⟩ => rfl
  | ⟨1, _⟩ => (show e.val % 600000 = e.val; have := e.isLt; omega)

theorem row1 (e : Fin 600000) : val_main_v3 (F := Ideal) x1 (ix1 e) = x1 (ix2 (1 : Fin 4) e) := by
  rw [val_main_v3_apply, val_main_v2_apply]
  refine congrArg x1 ?_
  funext a; apply Fin.ext
  match a with
  | ⟨0, _⟩ => rfl
  | ⟨1, _⟩ => (show e.val % 600000 = e.val; have := e.isLt; omega)

theorem row3 (e : Fin 600000) : val_main_v7 (F := Ideal) x1 (ix1 e) = x1 (ix2 (3 : Fin 4) e) := by
  rw [val_main_v7_apply, val_main_v6_apply]
  refine congrArg x1 ?_
  funext a; apply Fin.ext
  match a with
  | ⟨0, _⟩ => rfl
  | ⟨1, _⟩ => (show e.val % 600000 = e.val; have := e.isLt; omega)

/-- The slot word of edge e: batch · 50000 + target, wrapping. -/
theorem slot_word (e : Fin 600000) :
    val_main_v34 (F := Ideal) x1 (ix1 e)
      = IntOp.addi (IntOp.muli (x1 (ix2 (0 : Fin 4) e)) 50000#32) (x1 (ix2 (1 : Fin 4) e)) := by
  rw [val_main_v34_apply, val_main_v33_apply, row0, row1, val_main_v32_apply, val_main_c_5_apply]

/-- The relation word of edge e after the host's negative-index normalisation. -/
theorem rel_word (e : Fin 600000) :
    val_main_v26 (F := Ideal) x1 (ix1 e)
      = Scalar.select (IntOp.cmpi .slt (x1 (ix2 (3 : Fin 4) e)) 0#32) (IntOp.addi (x1 (ix2 (3 : Fin 4) e)) 64#32)
          (x1 (ix2 (3 : Fin 4) e)) := by
  rw [val_main_v26_apply, val_main_v23_apply, val_main_v25_apply, row3, val_main_v22_apply, val_main_c_3_apply,
    val_main_v24_apply, val_main_c_4_apply]

/-- The relation table's row the reference subtracts for edge e. -/
theorem rel_row (e : Fin 600000) (k : Fin 128) :
    val_main_v28 (F := Ideal) x1 x2 (ix2 e k)
      = x2 (ix2 ⟨min (val_main_v26 (F := Ideal) x1 (ix1 e)).toInt.toNat (64 - 1), by omega⟩ k) := by
  unfold val_main_v28
  refine (ScatterRead.rowGather_apply (R := 64) (N := 128) (E := 600000)
    gather_S64x128_S600000x1_S600000x128_1_0_n_n_0_1_1128_wf (by decide) x2 (val_main_v27 (F := Ideal) x1) e k).trans ?_
  have hw : val_main_v27 (F := Ideal) x1 (ix2 e (0 : Fin 1)) = val_main_v26 (F := Ideal) x1 (ix1 e) := by
    rw [val_main_v27_apply, col27]
  refine congrArg x2 ?_
  funext a; apply Fin.ext
  match a with
  | ⟨0, _⟩ =>
    show min (val_main_v27 (F := Ideal) x1 (ix2 e (0 : Fin 1))).toInt.toNat (64 - 1)
      = min (val_main_v26 (F := Ideal) x1 (ix1 e)).toInt.toNat (64 - 1)
    rw [hw]
  | ⟨1, _⟩ => rfl

/-- The numerator table at (s, o). -/
theorem num_apply (s : Fin 100000) (o : Fin 128) :
    val_main_v37 (F := Ideal) x0 x1 x2 x3 (ix2 s o)
      = Ideal.ofBits .f32 0x00000000#32 + ∑ e : Fin 600000,
          if (val_main_v34 (F := Ideal) x1 (ix1 e)).toInt = (s.val : Int) then
            ∑ k : Fin 128, (val_main_v21 (F := Ideal) x0 x1 (ix2 e k) - val_main_v28 (F := Ideal) x1 x2 (ix2 e k)) * x3 (ix2 o k)
          else 0 := by
  unfold val_main_v37
  refine (ScatterRead.rows_apply_of (M := 100000) (N := 128) (E := 600000)
    scatter_S100000x128_S600000x1_S600000x128_1_0_0_1_wf scatter_S100000x128_S600000x1_S600000x128_1_0_0_1 rfl
    (val_main_v35 (F := Ideal)) (val_main_v36 (F := Ideal) x1) (val_main_v31 (F := Ideal) x0 x1 x2 x3) s o).trans ?_
  refine congrArg₂ (· + ·) ?_ (Finset.sum_congr rfl fun e _ => ?_)
  · exact idx35 _
  · rw [val_main_v36_apply, col36]
    refine if_congr Iff.rfl ?_ rfl
    rw [val_main_v31_apply]
    refine Finset.sum_congr rfl fun k _ => ?_
    rw [val_main_v29_apply, val_main_v30_apply, lidx31, ridx31, Ideal.subf_def]

/-- The count vector at s. -/
theorem den_apply (s : Fin 100000) :
    val_main_v41 (F := Ideal) x1 (ix1 s)
      = Ideal.ofBits .f32 0x00000000#32 + ∑ e : Fin 600000,
          if (val_main_v34 (F := Ideal) x1 (ix1 e)).toInt = (s.val : Int) then Ideal.ofBits .f32 0x3F800000#32 else 0 := by
  unfold val_main_v41
  refine (ScatterRead.flat_apply_of (M := 100000) (E := 600000)
    scatter_S100000_S600000x1_S600000_n_0_0_1_wf scatter_S100000_S600000x1_S600000_n_0_0_1 rfl
    (val_main_v39 (F := Ideal)) (val_main_v40 (F := Ideal) x1) (val_main_v38 (F := Ideal)) s).trans ?_
  refine congrArg₂ (· + ·) ?_ (Finset.sum_congr rfl fun e _ => ?_)
  · exact idx39 _
  · rw [val_main_v40_apply, col40]
    exact if_congr Iff.rfl (idx38 _) rfl

/-- THE RESULT at (b, n, o): the numerator table over the count vector, at slot 50000 b + n. -/
theorem out_apply (b : Fin 2) (n : Fin 50000) (o : Fin 128) :
    val_main_v45 (F := Ideal) x0 x1 x2 x3 (ix3 b n o)
      = Ideal.div (val_main_v37 (F := Ideal) x0 x1 x2 x3 (ix2 ⟨b.val * 50000 + n.val, by omega⟩ o))
          (val_main_v41 (F := Ideal) x1 (ix1 ⟨b.val * 50000 + n.val, by omega⟩)) := by
  rw [val_main_v45_apply, val_main_v42_apply, val_main_v44_apply, val_main_v43_apply, Ideal.hostDivf_def]
  refine congrArg₂ Ideal.div (congrArg (val_main_v37 (F := Ideal) x0 x1 x2 x3) ?_) (congrArg (val_main_v41 (F := Ideal) x1) ?_)
  · funext a; apply Fin.ext
    match a with
    | ⟨0, _⟩ => (show ((b.val * 50000 + n.val) * 128 + o.val) / 128 = b.val * 50000 + n.val; have := o.isLt; omega)
    | ⟨1, _⟩ => (show ((b.val * 50000 + n.val) * 128 + o.val) % 128 = o.val; have := o.isLt; omega)
  · funext a; apply Fin.ext
    match a with
    | ⟨0, _⟩ => (show (b.val * 50000 + n.val) * 1 + 0 = b.val * 50000 + n.val; omega)

end Cert.ReferenceIdeal.RefValue

end
-- ==== Proof.KernelEntryRead.lean ====
/-
  The staged arrays, entry by entry.

  S[s, k] is zero plus the sum, over the edges whose slot word is s, of the gathered node row's entry k. C[s, j] is
  entry 64 s + j of the flat count vector: zero plus a one for every edge whose key (slot · 64 + relation, wrapping)
  is 64 s + j. The staged relation table and weight are the argument's entries, the weight's transposed.
-/
import proofs.«178100_j24412594110749_2_alg».proof.Proof.KernelEntry
import proofs.«178100_j24412594110749_2_alg».proof.Proof.RefValue

noncomputable section

namespace Cert.KernelIdeal.Entry

open Cert.KernelIdeal Cert.KernelIdeal.Facts₀ Idealize.ShloMosaic Idealize.ShloMosaic.ValueIdx
open Cert.ReferenceIdeal.Read

variable (x0 : FVec Ideal S2x50000x128 .f32) (x1 : IVec S4x600000 32)

/-- A scalar broadcast reads the scalar. -/
theorem bcast_scalar {α : Type} {S : Shape} (h : S_.BroadcastsInDim S (![] : Fin 0 → Fin S.rank)) (v : S_.Idx → α) (i : S.Idx) :
    broadcastInDim S ![] h v i = v (fun a => a.elim0) :=
  broadcastInDim_apply _ h v i (fun a => a.elim0) (fun a => a.elim0)

/-- A vector of edges as an [E, 1] column reads the vector. -/
theorem bcast_col {α : Type} (y : S600000.Idx → α) (e : Fin 600000) :
    broadcastInDim S600000x1 ![0] bcast_S600000_S600000x1_0 y (ix2 e (0 : Fin 1)) = y (ix1 e) :=
  broadcastInDim_apply _ bcast_S600000_S600000x1_0 y (ix2 e (0 : Fin 1)) (ix1 e) (fun a => match a with
    | ⟨0, _⟩ => by show e.val = if (600000 : Nat) = 1 then 0 else e.val; rw [if_neg (by decide)])

/-- S at (s, k). -/
theorem nodeSum_apply (s : Fin 100000) (k : Fin 128) :
    nodeSum x0 x1 (ix2 s k) = Ideal.ofBits .f32 0x00000000#32 + ∑ e : Fin 600000,
      if (val_main_v34 (F := Ideal) x1 (ix1 e)).toInt = (s.val : Int) then val_main_v21 (F := Ideal) x0 x1 (ix2 e k) else 0 := by
  unfold nodeSum
  refine (ScatterRead.rows_apply_of (M := 100000) (N := 128) (E := 600000)
    Cert.KernelIdeal.Facts₀.scatter_S100000x128_S600000x1_S600000x128_1_0_0_1_wf
    scatter_S100000x128_S600000x1_S600000x128_1_0_0_1 rfl
    (val_main_v35 (F := Ideal)) (val_main_v36 (F := Ideal) x1) (val_main_v21 (F := Ideal) x0 x1) s k).trans ?_
  refine congrArg₂ (· + ·) (Cert.ReferenceIdeal.RefValue.idx35 _) (Finset.sum_congr rfl fun e _ => ?_)
  rw [val_main_v36_apply, Cert.ReferenceIdeal.RefValue.col36]

/-- The key of edge e. -/
theorem slotKey_apply (e : Fin 600000) :
    slotKey x1 (ix1 e)
      = IntOp.addi (IntOp.muli (val_main_v34 (F := Ideal) x1 (ix1 e)) 64#32) (val_main_v7 (F := Ideal) x1 (ix1 e)) := by
  unfold slotKey
  show IntOp.addi (IntOp.muli (val_main_v34 (F := Ideal) x1 (ix1 e))
    (broadcastInDim S600000 ![] bcast_S_S600000 (constantI S_ 32 64#32) (ix1 e))) (val_main_v7 (F := Ideal) x1 (ix1 e)) = _
  rw [bcast_scalar]
  rfl

/-- The flat count vector at q. -/
theorem keyCount_apply (q : Fin 6400000) :
    keyCount x1 (ix1 q) = Ideal.ofBits .f32 0x00000000#32 + ∑ e : Fin 600000,
      if (slotKey x1 (ix1 e)).toInt = (q.val : Int) then Ideal.ofBits .f32 0x3F800000#32 else 0 := by
  unfold keyCount
  refine (ScatterRead.flat_apply_of (M := 6400000) (E := 600000)
    Cert.KernelIdeal.Facts₀.scatter_S6400000_S600000x1_S600000_n_0_0_1_wf
    scatter_S6400000_S600000x1_S600000_n_0_0_1 rfl _ _ _ q).trans ?_
  refine congrArg₂ (· + ·) ?_ (Finset.sum_congr rfl fun e _ => ?_)
  · rw [bcast_scalar]; rfl
  · rw [bcast_col, bcast_scalar]; rfl

/-- C at (s, j) is the flat vector at 64 s + j. -/
theorem relCount_apply (s : Fin 100000) (j : Fin 64) :
    relCount x1 (ix2 s j) = keyCount x1 (ix1 ⟨s.val * 64 + j.val, by omega⟩) := by
  unfold relCount
  exact shapeCast_apply (keyCount x1) shapeCasts_S6400000_S100000x64 (ix2 s j) (ix1 ⟨s.val * 64 + j.val, by omega⟩)
    (by rewrite [Shape.rowMajor_val_one, Shape.rowMajor_val_two]; rfl)

/-- The staged relation table is the argument's. -/
theorem relTab_apply (x2 : FVec Ideal S64x128 .f32) (i : S64x128.Idx) : relTab x2 i = x2 i := rfl

/-- The staged weight at (k, o) is the argument's at (o, k). -/
theorem weightT_apply (x3 : FVec Ideal S128x128 .f32) (k o : Fin 128) : weightT x3 (ix2 k o) = x3 (ix2 o k) := by
  show val_main_v30 (F := Ideal) x3 (ix2 k o) = _
  rw [val_main_v30_apply]
  refine congrArg x3 ?_
  funext a
  match a with
  | ⟨0, _⟩ => rfl
  | ⟨1, _⟩ => rfl

end Cert.KernelIdeal.Entry

end
-- ==== Proof.SegmentSums.lean ====
import Idealize.ShloMosaic.PureOps.Ideal

/-!
Segment sums: projecting after summing agrees with summing the projections.

For finite index types of edges `E`, features `K` and relations `J`, a segment is the set of
edges satisfying a predicate `p`, and every edge `e` carries a relation `r e`. The layer sums,
over the edges of the segment, the projected difference `Σ_k (h e k − R (r e) k) · W k`. The
same number is obtained by first summing `h` over the segment, counting for each relation `j`
how many edges of the segment carry it, subtracting `Σ_j count_j · R j k`, and projecting once
with `W`. The entries live in the extended reals but each is the coercion of a real number,
so both sides are coercions of real numbers and the identity is the distributive law in `ℝ`
together with the partition of the segment's edges by their relation.
-/

noncomputable section

namespace Cert.SegmentSums

open Finset

variable {E K J : Type} [Fintype E] [Fintype K] [Fintype J] [DecidableEq J]

/-- The coercion `ℝ → EReal` commutes with finite sums. -/
theorem coe_sum {ι : Type} (s : Finset ι) (f : ι → ℝ) :
    ((∑ i ∈ s, f i : ℝ) : EReal) = ∑ i ∈ s, (f i : EReal) := by
  classical
  refine Finset.induction_on s ?_ ?_
  · simp
  · intro a t ha ih
    rw [Finset.sum_insert ha, Finset.sum_insert ha, EReal.coe_add, ih]

/-- The edges of a segment are partitioned by their relation: summing fibre by fibre is summing
over the whole segment. Valid in any additive commutative monoid. -/
theorem sum_fiber {M : Type} [AddCommMonoid M] (p : E → Prop) [DecidablePred p] (r : E → J)
    (f : E → M) :
    ∑ j : J, ∑ e ∈ univ.filter (fun e => p e ∧ r e = j), f e = ∑ e ∈ univ.filter p, f e := by
  have hfil : ∀ j : J, univ.filter (fun e => p e ∧ r e = j)
      = (univ.filter p).filter (fun e => r e = j) := by
    intro j
    rw [Finset.filter_filter]
  simp only [hfil]
  exact Finset.sum_fiberwise (univ.filter p) r f

/-- The per-relation counts of a segment add up to the count of the segment. -/
theorem counts_fiber (p : E → Prop) [DecidablePred p] (r : E → J) (c : EReal) :
    ∑ j : J, ∑ e ∈ univ.filter (fun e => p e ∧ r e = j), c = ∑ e ∈ univ.filter p, c :=
  sum_fiber p r (fun _ => c)

/-- Over the reals: weighting each relation's row by the number of the segment's edges carrying
that relation is summing, over the segment's edges, the row of the edge's own relation. -/
theorem real_counts (p : E → Prop) [DecidablePred p] (r : E → J) (R : J → K → ℝ) (k : K) :
    ∑ j : J, (∑ e ∈ univ.filter (fun e => p e ∧ r e = j), (1 : ℝ)) * R j k
      = ∑ e ∈ univ.filter p, R (r e) k := by
  rw [← sum_fiber p r (fun e => R (r e) k)]
  refine Finset.sum_congr rfl fun j _ => ?_
  rw [Finset.sum_mul]
  refine Finset.sum_congr rfl fun e he => ?_
  rw [Finset.mem_filter] at he
  rw [one_mul, he.2.2]

/-- The identity over the reals. -/
theorem real_project_after_sum (p : E → Prop) [DecidablePred p] (r : E → J) (h : E → K → ℝ)
    (R : J → K → ℝ) (W : K → ℝ) :
    ∑ k : K, ((∑ e ∈ univ.filter p, h e k)
        - ∑ j : J, (∑ e ∈ univ.filter (fun e => p e ∧ r e = j), (1 : ℝ)) * R j k) * W k
      = ∑ e ∈ univ.filter p, ∑ k : K, (h e k - R (r e) k) * W k := by
  rw [Finset.sum_comm]
  refine Finset.sum_congr rfl fun k _ => ?_
  rw [real_counts p r R k, ← Finset.sum_sub_distrib, Finset.sum_mul]

/-- Projecting once after summing over the segment equals summing the projected differences. -/
theorem project_after_sum (p : E → Prop) [DecidablePred p] (r : E → J) (h : E → K → ℝ)
    (R : J → K → ℝ) (W : K → ℝ) :
    ∑ k : K, ((∑ e ∈ univ.filter p, (h e k : EReal))
        - ∑ j : J, (∑ e ∈ univ.filter (fun e => p e ∧ r e = j), (1 : EReal)) * (R j k : EReal))
          * (W k : EReal)
      = ∑ e ∈ univ.filter p, ∑ k : K, ((h e k : EReal) - (R (r e) k : EReal)) * (W k : EReal) := by
  simp only [← EReal.coe_one, ← coe_sum, ← EReal.coe_mul, ← EReal.coe_sub]
  rw [real_project_after_sum p r h R W]

/-- The same identity with every sum over the segment written as a conditional sum over all
edges: an edge outside the segment contributes zero. -/
theorem project_after_sum_ite (p : E → Prop) [DecidablePred p] (r : E → J) (h : E → K → ℝ)
    (R : J → K → ℝ) (W : K → ℝ) :
    ∑ k : K, ((∑ e : E, if p e then (h e k : EReal) else 0)
        - ∑ j : J, (∑ e : E, if p e ∧ r e = j then (1 : EReal) else 0) * (R j k : EReal))
          * (W k : EReal)
      = ∑ e : E, if p e then ∑ k : K, ((h e k : EReal) - (R (r e) k : EReal)) * (W k : EReal)
          else 0 := by
  simp only [← Finset.sum_filter]
  exact project_after_sum p r h R W

/-- The per-relation counts as conditional sums over all edges. -/
theorem counts_fiber_ite (p : E → Prop) [DecidablePred p] (r : E → J) (c : EReal) :
    ∑ j : J, ∑ e : E, (if p e ∧ r e = j then c else 0) = ∑ e : E, if p e then c else 0 := by
  simp only [← Finset.sum_filter]
  exact counts_fiber p r c

end Cert.SegmentSums

end
-- ==== Proof.EdgeRanges.lean ====
import proofs.«178100_j24412594110749_2_alg».proof.Pre_finite_inputs
import proofs.«178100_j24412594110749_2_alg».proof.Proof.Gen.Pre_finite_inputs
import Idealize.ShloMosaic.Lib.ReduceAll
import Idealize.ShloMosaic.Lib.ValueIdx
import Idealize.ShloMosaic.PureOps.Ideal

/-!
The precondition `finite_inputs` decoded, and the integer arithmetic of segment ids.

The precondition is one bit: the conjunction of nine "for all entries" tests. Three say that every
entry of a float array is finite (`|x| < +∞`), so it is a real number; six say that rows 0, 1 and 3
of the integer array lie in `[0, 2)`, `[0, 50000)` and `[0, 64)` as signed 32-bit words. When the
bit is one, all nine hold entrywise (`of_pre`). The second half is pure two's-complement
arithmetic: for words in those ranges the products and sums `b * 50000 + t` and `s * 64 + r`
do not wrap, the negative-index normalisation is the identity, and clamping to the range is the
identity.
-/

noncomputable section

namespace Cert.EdgeRanges

open Idealize.ShloMosaic Idealize.ShloMosaic.ValueIdx Cert.Pre_finite_inputs

attribute [local instance] Cert.Pre_finite_inputs.Gen.facts

/-! ### Two's-complement arithmetic of segment ids: no wrap in range -/

/-- The 32-bit word `50000` read as a signed integer. -/
private theorem toInt_50000 : (50000#32 : BitVec 32).toInt = 50000 := by decide

/-- The 32-bit word `64` read as a signed integer. -/
private theorem toInt_64 : (64#32 : BitVec 32).toInt = 64 := by decide

/-- The 32-bit word `0` read as a signed integer. -/
private theorem toInt_zero32 : (0#32 : BitVec 32).toInt = 0 := by decide

/-- A batch index `b ∈ [0, 2)` and a token index `t ∈ [0, 50000)`: the wrapping word
    `b * 50000 + t` is the integer `b * 50000 + t` (it is below `2^31`). -/
theorem seg_toInt (b t : BitVec 32) (hb : 0 ≤ b.toInt ∧ b.toInt < 2)
    (ht : 0 ≤ t.toInt ∧ t.toInt < 50000) :
    (IntOp.addi (IntOp.muli b 50000#32) t).toInt = b.toInt * 50000 + t.toInt := by
  unfold IntOp.addi IntOp.muli
  have h1 : (b * 50000#32).toInt = b.toInt * 50000 := by
    rw [BitVec.toInt_mul, toInt_50000, Int.bmod_def]; omega
  rw [BitVec.toInt_add, h1, Int.bmod_def]; omega

/-- A segment id `s ∈ [0, 100000)` and a relation id `r ∈ [0, 64)`: the wrapping word
    `s * 64 + r` is the integer `s * 64 + r` (it is below `2^31`). -/
theorem comb_toInt (s r : BitVec 32) (hs : 0 ≤ s.toInt ∧ s.toInt < 100000)
    (hr : 0 ≤ r.toInt ∧ r.toInt < 64) :
    (IntOp.addi (IntOp.muli s 64#32) r).toInt = s.toInt * 64 + r.toInt := by
  unfold IntOp.addi IntOp.muli
  have h1 : (s * 64#32).toInt = s.toInt * 64 := by
    rw [BitVec.toInt_mul, toInt_64, Int.bmod_def]; omega
  rw [BitVec.toInt_add, h1, Int.bmod_def]; omega

/-- Normalising a possibly-negative index (add the extent when the word is negative)
    is the identity on a non-negative word. -/
theorem norm_nonneg (x n : BitVec 32) (hx : 0 ≤ x.toInt) :
    Scalar.select (IntOp.cmpi .slt x 0#32) (IntOp.addi x n) x = x := by
  have h : x.slt 0#32 = false := by
    rw [BitVec.slt_eq_decide, toInt_zero32]; exact decide_eq_false (by omega)
  simp only [IntOp.cmpi, h, Scalar.select]
  exact if_neg (by decide)

/-- A word in `[0, n]` is its own clamp to `[0, n]`. -/
theorem toInt_toNat_clamp (x : BitVec 32) (n : Nat)
    (hx : 0 ≤ x.toInt ∧ x.toInt < (n : Int) + 1) : min x.toInt.toNat n = x.toInt.toNat := by
  omega

/-! ### The precondition decoded -/

/-- The scalar shape has one index. -/
instance : Subsingleton S_.Idx := ⟨fun a b => funext fun d => d.elim0⟩

/-- The pattern `0x7F800000` (sign clear, exponent all ones, significand zero) is `+∞`. -/
private theorem ofBits_inf : Ideal.ofBits .f32 0x7F800000#32 = (⊤ : EReal) := by
  simp [Ideal.ofBits, Ideal.ieee]

/-- An extended real with `|x| < +∞` is a real number. -/
private theorem real_of_abs_lt (x : EReal)
    (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | coe r => exact ⟨r, rfl⟩
  | top => simp [Ideal.cmp] at h

/-- Entry `(0, e)` of the one-row slice at offsets `(r, 0)` is entry `(r, e)` of the array. -/
private theorem slice_row (r : Nat) (hr : r < 4) (ei : IVec S4x600000 32)
    (h : S4x600000.Slices ![r, 0] S1x600000) (e : Fin 600000) :
    extractStridedSlice S1x600000 ![r, 0] ei h (ix2 (0 : Fin 1) e) = ei (ix2 (⟨r, hr⟩ : Fin 4) e) := by
  unfold extractStridedSlice
  congr 1
  funext a
  match a with
  | ⟨0, _⟩ => exact Fin.ext (by simp)
  | ⟨1, _⟩ => exact Fin.ext (by simp)

/-- A row's "entry ≥ 0" test, read at column `e`: the entry is non-negative as a signed word. -/
private theorem row_ge (r : Nat) (hr : r < 4) (ei : IVec S4x600000 32)
    (hs : S4x600000.Slices ![r, 0] S1x600000)
    (hb : S_.BroadcastsInDim S1x600000 (![] : Fin 0 → Fin S1x600000.rank)) (e : Fin 600000)
    (h : cmpi .sge (extractStridedSlice S1x600000 ![r, 0] ei hs)
        (broadcastInDim S1x600000 ![] hb (constantI S_ 32 0#32)) (ix2 (0 : Fin 1) e) = 1#1) :
    0 ≤ (ei (ix2 (⟨r, hr⟩ : Fin 4) e)).toInt := by
  have h' : IntOp.cmpi .sge (extractStridedSlice S1x600000 ![r, 0] ei hs (ix2 (0 : Fin 1) e)) 0#32
      = 1#1 := h
  rw [slice_row r hr, IntOp.cmpi_sge, toInt_zero32] at h'
  exact h'

/-- A row's "entry < n" test, read at column `e`: the entry is below `n` as signed words. -/
private theorem row_lt (r : Nat) (hr : r < 4) (n : BitVec 32) (ei : IVec S4x600000 32)
    (hs : S4x600000.Slices ![r, 0] S1x600000)
    (hb : S_.BroadcastsInDim S1x600000 (![] : Fin 0 → Fin S1x600000.rank)) (e : Fin 600000)
    (h : cmpi .slt (extractStridedSlice S1x600000 ![r, 0] ei hs)
        (broadcastInDim S1x600000 ![] hb (constantI S_ 32 n)) (ix2 (0 : Fin 1) e) = 1#1) :
    (ei (ix2 (⟨r, hr⟩ : Fin 4) e)).toInt < n.toInt := by
  have h' : IntOp.cmpi .slt (extractStridedSlice S1x600000 ![r, 0] ei hs (ix2 (0 : Fin 1) e)) n
      = 1#1 := h
  rw [slice_row r hr, IntOp.cmpi_slt] at h'
  exact h'

/-- The vector `and` on one-bit words, read at an index. -/
private theorem andi_apply {s : Shape} (x y : IVec s 1) (i : s.Idx) :
    Idealize.ShloMosaic.andi x y i = IntOp.andi (x i) (y i) := rfl

/-- When the precondition's bit is one: every float entry is a real number, and rows 0, 1 and 3
    of the integer array lie in `[0, 2)`, `[0, 50000)` and `[0, 64)` as signed words. -/
theorem of_pre (ns : FVec Ideal S2x50000x128 .f32) (ei : IVec S4x600000 32)
    (rs : FVec Ideal S64x128 .f32) (w : FVec Ideal S128x128 .f32)
    (h : Cert.Pre_finite_inputs.fn (F := Ideal) ns ei rs w = fun _ => 1#1) :
    (∀ i, ∃ x : ℝ, ns i = (x : EReal)) ∧ (∀ i, ∃ x : ℝ, rs i = (x : EReal)) ∧
    (∀ i, ∃ x : ℝ, w i = (x : EReal)) ∧
    (∀ e : Fin 600000, 0 ≤ (ei (ix2 (0 : Fin 4) e)).toInt ∧ (ei (ix2 (0 : Fin 4) e)).toInt < 2) ∧
    (∀ e : Fin 600000, 0 ≤ (ei (ix2 (1 : Fin 4) e)).toInt ∧ (ei (ix2 (1 : Fin 4) e)).toInt < 50000) ∧
    (∀ e : Fin 600000, 0 ≤ (ei (ix2 (3 : Fin 4) e)).toInt ∧ (ei (ix2 (3 : Fin 4) e)).toInt < 64) := by
  have h0 := congrFun h ix0
  dsimp only [fn, fn_part1, fn_part2] at h0
  simp only [andi_apply, IntOp.andi_eq_one] at h0
  obtain ⟨⟨⟨⟨⟨⟨⟨⟨h1, h2⟩, h3⟩, h4⟩, h5⟩, h6⟩, h7⟩, h8⟩, h9⟩ := h0
  refine ⟨fun i => ?_, fun i => ?_, fun i => ?_, fun e => ⟨?_, ?_⟩, fun e => ⟨?_, ?_⟩, fun e => ⟨?_, ?_⟩⟩
  · exact real_of_abs_lt (ns i) (Host.reduce_andi_all _ _ _ _ ix0 h1 i)
  · exact real_of_abs_lt (rs i) (Host.reduce_andi_all _ _ _ _ ix0 h2 i)
  · exact real_of_abs_lt (w i) (Host.reduce_andi_all _ _ _ _ ix0 h3 i)
  · exact row_ge 0 (by omega) ei _ _ e (Host.reduce_andi_all _ _ _ _ ix0 h4 (ix2 (0 : Fin 1) e))
  · exact lt_of_lt_of_eq
      (row_lt 0 (by omega) 2#32 ei _ _ e (Host.reduce_andi_all _ _ _ _ ix0 h5 (ix2 (0 : Fin 1) e)))
      (by decide)
  · exact row_ge 1 (by omega) ei _ _ e (Host.reduce_andi_all _ _ _ _ ix0 h6 (ix2 (0 : Fin 1) e))
  · exact lt_of_lt_of_eq
      (row_lt 1 (by omega) 50000#32 ei _ _ e (Host.reduce_andi_all _ _ _ _ ix0 h7 (ix2 (0 : Fin 1) e)))
      toInt_50000
  · exact row_ge 3 (by omega) ei _ _ e (Host.reduce_andi_all _ _ _ _ ix0 h8 (ix2 (0 : Fin 1) e))
  · exact lt_of_lt_of_eq
      (row_lt 3 (by omega) 64#32 ei _ _ e (Host.reduce_andi_all _ _ _ _ ix0 h9 (ix2 (0 : Fin 1) e)))
      toInt_64

end Cert.EdgeRanges

end
-- ==== Proof.Bridge.lean ====
/-
  The two results are one function.

  Fix a slot s and an output column o, and write p e for "the slot word of edge e is s". With every float input a
  real number, every batch word in [0, 2), every target word in [0, 50000) and every relation word in [0, 64):
  the slot word batch · 50000 + target and the key slot · 64 + relation do not wrap, so the key of e is 64 s + j
  exactly when p e and the relation of e is j; the reference's normalisation and clamp of the relation word are the
  identity. Then the kernel's numerator

      Σ_k ( Σ_{e : p e} H[e, k] − Σ_j #{e : p e, rel e = j} · R[j, k] ) · W[o, k]

  and the reference's Σ_{e : p e} Σ_k (H[e, k] − R[rel e, k]) · W[o, k] are the same real number (the sums are finite
  and every term is real, so the product distributes), and the two denominators count the same edges.
-/
import proofs.«178100_j24412594110749_2_alg».proof.Proof.KernelEntryRead
import proofs.«178100_j24412594110749_2_alg».proof.Proof.KernelValue
import proofs.«178100_j24412594110749_2_alg».proof.Proof.RefValue
import proofs.«178100_j24412594110749_2_alg».proof.Proof.SegmentSums
import proofs.«178100_j24412594110749_2_alg».proof.Proof.EdgeRanges

set_option maxRecDepth 16384

noncomputable section

namespace Cert.Bridge

open Idealize.ShloMosaic Idealize.ShloMosaic.ValueIdx
open Cert.ReferenceIdeal.Read Cert.ReferenceIdeal
open Cert.KernelIdeal.Entry Cert.KernelIdeal.ArrayValue

/-- The word 0x3F800000 is the real number one. -/
theorem one_word : Ideal.ofBits .f32 0x3F800000#32 = (1 : EReal) := by
  simp [Ideal.ofBits, Ideal.ieee]
  rw [← EReal.coe_mul, ← EReal.coe_one, EReal.coe_eq_coe_iff]
  norm_num

variable (x0 : (⟨S2x50000x128, .f32⟩ : BufTy).Contents (Elt Ideal)) (x1 : (⟨S4x600000, .i32⟩ : BufTy).Contents (Elt Ideal))
  (x2 : (⟨S64x128, .f32⟩ : BufTy).Contents (Elt Ideal)) (x3 : (⟨S128x128, .f32⟩ : BufTy).Contents (Elt Ideal))

/-- The relation of edge e as an index of the relation table. -/
def relIx (e : Fin 600000) : Fin 64 := ⟨(x1 (ix2 (3 : Fin 4) e)).toInt.toNat % 64, Nat.mod_lt _ (by decide)⟩

section Ranges
variable (hb : ∀ e : Fin 600000, 0 ≤ (x1 (ix2 (0 : Fin 4) e)).toInt ∧ (x1 (ix2 (0 : Fin 4) e)).toInt < 2)
  (ht : ∀ e : Fin 600000, 0 ≤ (x1 (ix2 (1 : Fin 4) e)).toInt ∧ (x1 (ix2 (1 : Fin 4) e)).toInt < 50000)
  (hr : ∀ e : Fin 600000, 0 ≤ (x1 (ix2 (3 : Fin 4) e)).toInt ∧ (x1 (ix2 (3 : Fin 4) e)).toInt < 64)
include hb ht

/-- The slot word does not wrap: it is a slot. -/
theorem slot_range (e : Fin 600000) :
    0 ≤ (val_main_v34 (F := Ideal) x1 (ix1 e)).toInt ∧ (val_main_v34 (F := Ideal) x1 (ix1 e)).toInt < 100000 := by
  rw [RefValue.slot_word, Cert.EdgeRanges.seg_toInt _ _ (hb e) (ht e)]
  have := hb e; have := ht e; omega

include hr

/-- The key of e is 64 s + j exactly when e lands in slot s with relation j. -/
theorem key_iff (e : Fin 600000) (s : Fin 100000) (j : Fin 64) :
    (slotKey x1 (ix1 e)).toInt = ((s.val * 64 + j.val : ℕ) : ℤ)
      ↔ ((val_main_v34 (F := Ideal) x1 (ix1 e)).toInt = (s.val : ℤ) ∧ relIx x1 e = j) := by
  rw [slotKey_apply, RefValue.row3, Cert.EdgeRanges.comb_toInt _ _ (slot_range x1 hb ht e) (hr e)]
  have h1 := slot_range x1 hb ht e
  have h2 := hr e
  have hj := j.isLt
  have hs := s.isLt
  constructor
  · intro h
    refine ⟨by omega, Fin.ext ?_⟩
    show (x1 (ix2 (3 : Fin 4) e)).toInt.toNat % 64 = j.val
    omega
  · rintro ⟨ha, hj'⟩
    have hv : (x1 (ix2 (3 : Fin 4) e)).toInt.toNat % 64 = j.val := congrArg Fin.val hj'
    omega

omit hb ht in
/-- The row the reference subtracts for e is the relation table's row at the relation of e. -/
theorem rel_entry (e : Fin 600000) (k : Fin 128) :
    val_main_v28 (F := Ideal) x1 x2 (ix2 e k) = x2 (ix2 (relIx x1 e) k) := by
  refine (RefValue.rel_row x1 x2 e k).trans (congrArg x2 ?_)
  funext a; apply Fin.ext
  match a with
  | ⟨0, _⟩ =>
    show min (val_main_v26 (F := Ideal) x1 (ix1 e)).toInt.toNat (64 - 1) = (x1 (ix2 (3 : Fin 4) e)).toInt.toNat % 64
    rw [RefValue.rel_word, Cert.EdgeRanges.norm_nonneg _ _ (hr e).1]
    have := hr e
    omega
  | ⟨1, _⟩ => rfl

variable (h0 : ∀ i, ∃ r : ℝ, x0 i = (r : EReal)) (h2 : ∀ i, ∃ r : ℝ, x2 i = (r : EReal)) (h3 : ∀ i, ∃ r : ℝ, x3 i = (r : EReal))
include h0 h2 h3

/-- THE SLOT VALUES AGREE: the kernel's entry (s, o) is the reference's numerator table over its count vector there. -/
theorem slot_eq (s : Fin 100000) (o : Fin 128) :
    slotValue (nodeSum x0 x1) (relCount x1) (relTab x2) (weightT x3) s o
      = Ideal.div (val_main_v37 (F := Ideal) x0 x1 x2 x3 (ix2 s o)) (val_main_v41 (F := Ideal) x1 (ix1 s)) := by
  obtain ⟨Hr, hH⟩ : ∃ Hr : Fin 600000 → Fin 128 → ℝ, ∀ e k, val_main_v21 (F := Ideal) x0 x1 (ix2 e k) = (Hr e k : EReal) :=
    ⟨fun e k => (h0 _).choose, fun e k => (h0 _).choose_spec⟩
  obtain ⟨Rr, hR⟩ : ∃ Rr : Fin 64 → Fin 128 → ℝ, ∀ j k, x2 (ix2 j k) = (Rr j k : EReal) :=
    ⟨fun j k => (h2 (ix2 j k)).choose, fun j k => (h2 (ix2 j k)).choose_spec⟩
  obtain ⟨Wr, hW⟩ : ∃ Wr : Fin 128 → ℝ, ∀ k, x3 (ix2 o k) = (Wr k : EReal) :=
    ⟨fun k => (h3 (ix2 o k)).choose, fun k => (h3 (ix2 o k)).choose_spec⟩
  have hS : ∀ k : Fin 128, nodeSum x0 x1 (ix2 s k)
      = ∑ e : Fin 600000, if (val_main_v34 (F := Ideal) x1 (ix1 e)).toInt = (s.val : ℤ) then (Hr e k : EReal) else 0 := fun k => by
    rw [nodeSum_apply, Ideal.ofBits_zero_f32, zero_add]
    exact Finset.sum_congr rfl fun e _ => by rw [hH]
  have hC : ∀ j : Fin 64, relCount x1 (ix2 s j)
      = ∑ e : Fin 600000, if (val_main_v34 (F := Ideal) x1 (ix1 e)).toInt = (s.val : ℤ) ∧ relIx x1 e = j then (1 : EReal) else 0 := fun j => by
    rw [relCount_apply, keyCount_apply, Ideal.ofBits_zero_f32, zero_add, one_word]
    exact Finset.sum_congr rfl fun e _ => if_congr (key_iff x1 hb ht hr e s j) rfl rfl
  rw [RefValue.num_apply, RefValue.den_apply, Ideal.ofBits_zero_f32, zero_add, zero_add, one_word]
  unfold slotValue
  refine congrArg₂ Ideal.div ?_ ?_
  · have hN : ∀ e : Fin 600000, (∑ k : Fin 128,
          (val_main_v21 (F := Ideal) x0 x1 (ix2 e k) - val_main_v28 (F := Ideal) x1 x2 (ix2 e k)) * x3 (ix2 o k))
        = ∑ k : Fin 128, ((Hr e k : EReal) - (Rr (relIx x1 e) k : EReal)) * (Wr k : EReal) := fun e =>
      Finset.sum_congr rfl fun k _ => by rw [hH, rel_entry x1 x2 hr e k, hR, hW]
    simp only [hN]
    simp only [hS, hC, relTab_apply, weightT_apply, hR, hW]
    exact Cert.SegmentSums.project_after_sum_ite
      (fun e : Fin 600000 => (val_main_v34 (F := Ideal) x1 (ix1 e)).toInt = (s.val : ℤ)) (relIx x1) Hr Rr Wr
  · simp only [hC]
    exact Cert.SegmentSums.counts_fiber_ite
      (fun e : Fin 600000 => (val_main_v34 (F := Ideal) x1 (ix1 e)).toInt = (s.val : ℤ)) (relIx x1) (1 : EReal)

/-- THE RESULTS AGREE as arrays: the table, reshaped to [2, 50000, 128], is the reference's quotient. -/
theorem result_eq :
    shapeCast Cert.KernelIdeal.S2x50000x128
        (table (nodeSum x0 x1) (relCount x1) (relTab x2) (weightT x3)) Cert.KernelIdeal.Facts₀.shapeCasts_S100000x128_S2x50000x128
      = val_main_v45 (F := Ideal) x0 x1 x2 x3 := by
  funext i
  obtain ⟨b, n, o, rfl⟩ : ∃ (b : Fin 2) (n : Fin 50000) (o : Fin 128), i = ix3 b n o := ⟨i 0, i 1, i 2, eq_ix3 i⟩
  have hb' := b.isLt
  have hn' := n.isLt
  have ho' := o.isLt
  refine (shapeCast_apply _ Cert.KernelIdeal.Facts₀.shapeCasts_S100000x128_S2x50000x128 (ix3 b n o)
    (ix2 (⟨b.val * 50000 + n.val, by omega⟩ : Fin 100000) o)
    (by rewrite [Shape.rowMajor_val_two, Shape.rowMajor_val_three]; rfl)).trans ?_
  rw [RefValue.out_apply]
  exact slot_eq x0 x1 x2 x3 hb ht hr h0 h2 h3 ⟨b.val * 50000 + n.val, by omega⟩ o

end Ranges

end Cert.Bridge

end
-- ==== Proof.lean ====
/-
  A graph layer's node update: for every (batch, target node) slot, the mean over the edges landing there of the
  projected difference (source node state − relation state) · Wᵀ.

  The reference projects each of the 600000 edges, sums the projected rows per slot and divides by the number of edges
  of the slot. The kernel sums the source node states per slot first (S), counts per slot how many edges carry each
  of the 64 relations (C), and then, tile by tile of 5000 slots, computes ((S − C · rel) · Wᵀ) / (row sum of C).
  On the extended reals, with every float input finite and the batch, target and relation words of every edge inside
  the axes they select, the two are the same function of the inputs: the slot and key arithmetic do not wrap, the
  per-relation counts partition a slot's edges, and the projection distributes over the finite real sums
  (Bridge.lean). The kernel's array is read off its generated frame run (KernelValue.lean, KernelRun.lean,
  KernelEntry.lean), the reference's off its generated run (RefValue.lean). The word-level kernel needs only its
  generated frame, and the idealization rewrote nothing.
-/
import proofs.«178100_j24412594110749_2_alg».proof.Defs
import proofs.«178100_j24412594110749_2_alg».proof.Proof.Gen.Kernel
import proofs.«178100_j24412594110749_2_alg».proof.Proof.Gen.Kernel.Skeleton
import proofs.«178100_j24412594110749_2_alg».proof.Proof.Gen.Kernel.Launch
import proofs.«178100_j24412594110749_2_alg».proof.Proof.Gen.Kernel.Points
import proofs.«178100_j24412594110749_2_alg».proof.Proof.Gen.Kernel.Frame
import proofs.«178100_j24412594110749_2_alg».proof.Proof.Gen.KernelIdeal
import proofs.«178100_j24412594110749_2_alg».proof.Proof.Gen.KernelIdeal.Skeleton
import proofs.«178100_j24412594110749_2_alg».proof.Proof.Gen.KernelIdeal.Launch
import proofs.«178100_j24412594110749_2_alg».proof.Proof.Gen.KernelIdeal.Points
import proofs.«178100_j24412594110749_2_alg».proof.Proof.Gen.KernelIdeal.Frame
import proofs.«178100_j24412594110749_2_alg».proof.Proof.Gen.ReferenceIdeal
import proofs.«178100_j24412594110749_2_alg».proof.Proof.Gen.ReferenceIdeal.Run
import proofs.«178100_j24412594110749_2_alg».proof.Proof.Gen.ReferenceIdeal.Read
import proofs.«178100_j24412594110749_2_alg».proof.Proof.Gen.Pre_finite_inputs
import proofs.«178100_j24412594110749_2_alg».proof.Proof.KernelRun
import proofs.«178100_j24412594110749_2_alg».proof.Proof.KernelEntry
import proofs.«178100_j24412594110749_2_alg».proof.Proof.Bridge
import proofs.«178100_j24412594110749_2_alg».proof.Proof.EdgeRanges
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the four inputs, both programs end with the same [2, 50000, 128] array: the kernel's
    table of slot values, reshaped, is the reference's quotient of its two scatter sums. -/
theorem algebraic : Cert.algebraic_KernelIdeal_ReferenceIdeal := by
  intro m ρ m' ρ' hpre hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨f0, f2, f3, hb, ht, hr⟩ := Cert.EdgeRanges.of_pre _ _ _ _ (hpre c)
  rw [Cert.ReferenceIdeal.Read.val_main_v45_eq, (hagree c).1, (hagree c).2.1, (hagree c).2.2.1, (hagree c).2.2.2]
  unfold Cert.KernelIdeal.ArrayValue.result
  beta_reduce
  rw [Cert.KernelIdeal.Entry.entry0, Cert.KernelIdeal.Entry.entry1, Cert.KernelIdeal.Entry.entry2,
    Cert.KernelIdeal.Entry.entry3]
  exact (Cert.Bridge.result_eq _ _ _ _ hb ht hr f0 f2 f3).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
